-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16x128 .f32) (main_arg9 : FVec F S16 .f32) (main_arg10 : FVec F S16x128 .f32) (main_v33 : IVec S_ 1) : IVec S_ 1 :=
  let main_v34 : FVec F S16x128 .f32 := Host.absf main_arg8
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x128 .f32 := Host.absf main_arg10
  let main_cst_16 : FVec F S_ .f32 := constant S_ .f32 0x7F800000#32
  let main_v45 : FVec F S16x128 .f32 := broadcastInDim S16x128 ![] bcast_S_S16x128 main_cst_16
  let main_v46 : IVec S16x128 1 := cmpf .olt main_v44 main_v45
  let main_c_17 : IVec S_ 1 := constantI S_ 1 1#1
  let main_v47 : IVec S_ 1 := (fun x v => Host.reduce IntOp.andi x v reducesTo_S16x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S16x128 .f32) (main_arg9 : FVec F S16 .f32) (main_arg10 : FVec F S16x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S16x128 .f32) (main_arg9 : FVec F S16 .f32) (main_arg10 : FVec F S16x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S128x16 : Shape := ⟨2, ![128, 16]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 102
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S16x128, .f32⟩
  | .hbm, ⟨9, _⟩ => ⟨S16, .f32⟩
  | .hbm, ⟨10, _⟩ => ⟨S16x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S100000x128, .f32⟩
  | .hbm, ⟨26, _⟩ => ⟨S600000x1, .i32⟩
  | .hbm, ⟨27, _⟩ => ⟨S100000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S100000, .f32⟩
  | .hbm, ⟨32, _⟩ => ⟨S600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S100000x128, .f32⟩
  | .hbm, ⟨55, _⟩ => ⟨S600000x1, .i32⟩
  | .hbm, ⟨56, _⟩ => ⟨S100000x128, .f32⟩
  | .hbm, ⟨57, _⟩ => ⟨S_, .f32⟩
  | .hbm, ⟨58, _⟩ => ⟨S600000, .f32⟩
  | .hbm, ⟨59, _⟩ => ⟨S_, .f32⟩
  | .hbm, ⟨60, _⟩ => ⟨S100000, .f32⟩
  | .hbm, ⟨61, _⟩ => ⟨S600000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S128x128, .f32⟩
  | .hbm, ⟨70, _⟩ => ⟨S128x128, .f32⟩
  | .hbm, ⟨71, _⟩ => ⟨S1x128, .f32⟩
  | .hbm, ⟨72, _⟩ => ⟨S100000x128, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x128, .f32⟩
  | .hbm, ⟨82, _⟩ => ⟨S_, .f32⟩
  | .hbm, ⟨83, _⟩ => ⟨S100000x128, .f32⟩
  | .hbm, ⟨84, _⟩ => ⟨S600000x1, .i32⟩
  | .hbm, ⟨85, _⟩ => ⟨S100000x128, .f32⟩
  | .hbm, ⟨86, _⟩ => ⟨S_, .f32⟩
  | .hbm, ⟨87, _⟩ => ⟨S600000, .f32⟩
  | .hbm, ⟨88, _⟩ => ⟨S_, .f32⟩
  | .hbm, ⟨89, _⟩ => ⟨S100000, .f32⟩
  | .hbm, ⟨90, _⟩ => ⟨S600000x1, .i32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S128x16, .f32⟩
  | .hbm, ⟨99, _⟩ => ⟨S128x16, .f32⟩
  | .hbm, ⟨100, _⟩ => ⟨S1x16, .f32⟩
  | .hbm, ⟨101, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x16, .f32⟩
  | .local _ .vmem, ⟨23, _⟩ => ⟨S128x16, .f32⟩
  | .local _ .vmem, ⟨24, _⟩ => ⟨S1x16, .f32⟩
  | .local _ .vmem, ⟨25, _⟩ => ⟨S5000x16, .f32⟩
  | .local _ .vmem, ⟨26, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S16x128_S128x16_1_0 : S16x128.Transposes [1, 0] S128x16
  shapeCasts_S16_S1x16 : S16.ShapeCasts S1x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x16.size a ≤ S128x16.size a
  hwx2_2 : ∀ i : grid2.Coords, EltTy.bits .f32 = 32 ∨ (Rect.block (s := S128x16) S128x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x16.size a ≤ S128x16.size a
  hwx2_3 : ∀ i : grid2.Coords, EltTy.bits .f32 = 32 ∨ (Rect.block (s := S128x16) S128x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S128x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S128x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S128x16 : Shape := ⟨2, ![128, 16]⟩
abbrev S100000x16 : Shape := ⟨2, ![100000, 16]⟩
abbrev S1x16 : Shape := ⟨2, ![1, 16]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S16x128, .f32⟩
  | 9 => ⟨S16, .f32⟩
  | 10 => ⟨S16x128, .f32⟩
  | 11 => ⟨S1x600000, .i32⟩
  | 12 => ⟨S600000, .i32⟩
  | 13 => ⟨S1x600000, .i32⟩
  | 14 => ⟨S600000, .i32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S_, .f32⟩
  | 25 => ⟨S100000x128, .f32⟩
  | 26 => ⟨S600000x1, .i32⟩
  | 27 => ⟨S100000x128, .f32⟩
  | 28 => ⟨S_, .f32⟩
  | 29 => ⟨S600000, .f32⟩
  | 30 => ⟨S_, .f32⟩
  | 31 => ⟨S100000, .f32⟩
  | 32 => ⟨S600000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S128x128, .f32⟩
  | 41 => ⟨S100000x128, .f32⟩
  | 42 => ⟨S1x128, .f32⟩
  | 43 => ⟨S100000x128, .f32⟩
  | 44 => ⟨S100000x128, .f32⟩
  | 45 => ⟨S128x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S_, .f32⟩
  | 61 => ⟨S100000x128, .f32⟩
  | 62 => ⟨S600000x1, .i32⟩
  | 63 => ⟨S100000x128, .f32⟩
  | 64 => ⟨S_, .f32⟩
  | 65 => ⟨S600000, .f32⟩
  | 66 => ⟨S_, .f32⟩
  | 67 => ⟨S100000, .f32⟩
  | 68 => ⟨S600000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S128x128, .f32⟩
  | 77 => ⟨S100000x128, .f32⟩
  | 78 => ⟨S1x128, .f32⟩
  | 79 => ⟨S100000x128, .f32⟩
  | 80 => ⟨S100000x128, .f32⟩
  | 81 => ⟨S128x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S_, .f32⟩
  | 97 => ⟨S100000x128, .f32⟩
  | 98 => ⟨S600000x1, .i32⟩
  | 99 => ⟨S100000x128, .f32⟩
  | 100 => ⟨S_, .f32⟩
  | 101 => ⟨S600000, .f32⟩
  | 102 => ⟨S_, .f32⟩
  | 103 => ⟨S100000, .f32⟩
  | 104 => ⟨S600000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S128x16, .f32⟩
  | 113 => ⟨S100000x16, .f32⟩
  | 114 => ⟨S1x16, .f32⟩
  | 115 => ⟨S100000x16, .f32⟩
  | 116 => ⟨S100000x16, .f32⟩
  | 117 => ⟨S128x16, .f32⟩
  | 118 => ⟨S100000x16, .f32⟩
  | 119 => ⟨S100000x16, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x16, .f32⟩
  | 127 => ⟨S100000x16, .f32⟩
  | _ => ⟨S100000x128, .f32⟩

abbrev hbmTy0_1 (i : Nat) : BufTy := match i % 128 with
  | 0 => ⟨S100000x16, .f32⟩
  | 1 => ⟨S_, .f32⟩
  | 2 => ⟨S100000, .f32⟩
  | 3 => ⟨S100000x1, .f32⟩
  | 4 => ⟨S100000x1, .f32⟩
  | 5 => ⟨S100000x16, .f32⟩
  | 6 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call2_cst : Ref sig .tc := ⟨.hbm, 120, rfl⟩
abbrev main_call2_v0 : Ref sig .tc := ⟨.hbm, 121, rfl⟩
abbrev main_call2_cst_0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_cst_1 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_v87 : Ref sig .tc := ⟨.hbm, 134, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S16x128_S128x16_1_0 : S16x128.Transposes [1, 0] S128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The idealized kernel's run with its result NAMED.  @main is six segments — a stretch of host operations, then a
  pallas_call, three times over — and the buffer contents at the six boundaries are the fold `W0 … W6` of the generated
  frame module: a host stretch maps the contents through its operations, a region replaces its arrays by what its
  write-backs leave.  Every weakly fair execution terminates without a fault; at the end every unscoped buffer holds the
  last boundary's contents `W6`, so the result buffer holds `W6` at the result's reference and each argument what it
  held at launch.
-/
import proofs.«117211_j47648367182185_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the six segments from the launch memory: the result buffer ends at the last boundary's contents at the
    result's reference, every argument as launched. -/
theorem run_named : θ_run defs (onTc (τ := τ) (main (F := F))) ⟨m, fun _ => 0, ρ⟩ (fun r => ∀ c : Dev nD,
      r.2.mem ((c.tc : Thread nD τ).loc main_v72) = W6 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v72 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.KDots.lean ====
/-
  The two matrix products of the idealized kernel's bodies read at an index.  A body multiplies a [5000, 128] block of rows by a
  resident [128, 128] (hidden layers) or [128, 16] (last layer) weight matrix into a zero accumulator; on the extended reals
  the entry (p, q) of the product is the plain sum over k of left (p, k) times right (k, q).
-/
import proofs.«117211_j47648367182185_1_alg».proof.Proof.Gen.KernelIdeal
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The left operand's index at output index `i` and contraction index `q`: row `i 0`, column `q`. -/
theorem lhs0_dot_S5000x128_S128x128_S5000x128_1_0_0_1_n_n (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_dot_S5000x128_S128x128_S5000x128_1_0_0_1_n_n (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row `q`, column `i 1`. -/
theorem rhs0_dot_S5000x128_S128x128_S5000x128_1_0_0_1_n_n (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1_dot_S5000x128_S128x128_S5000x128_1_0_0_1_n_n (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- On the extended reals the product of an [5000, 128] and a [128, 128] matrix reads, at (p, q), the sum over k of the
    left factor at (p, k) times the right factor at (k, q). -/
theorem matmul_dot_S5000x128_S128x128_S5000x128_1_0_0_1_n_n_apply {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant (F := Ideal) S5000x128 .f32 0x00000000#32) (ix2 p q) = ∑ k : Fin 128, l (ix2 p k) * r (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0_dot_S5000x128_S128x128_S5000x128_1_0_0_1_n_n _ _
    | ⟨1, _⟩ => exact (lhs1_dot_S5000x128_S128x128_S5000x128_1_0_0_1_n_n _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0_dot_S5000x128_S128x128_S5000x128_1_0_0_1_n_n _ _).trans hk
    | ⟨1, _⟩ => exact rhs1_dot_S5000x128_S128x128_S5000x128_1_0_0_1_n_n _ _)
  rw [el, er]

/-- The left operand's index at output index `i` and contraction index `q`: row `i 0`, column `q`. -/
theorem lhs0_dot_S5000x128_S128x16_S5000x16_1_0_0_1_n_n (i : S5000x16.Idx) (q : dot_S5000x128_S128x16_S5000x16_1_0_0_1_n_n.contr.Idx) : (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs1_dot_S5000x128_S128x16_S5000x16_1_0_0_1_n_n (i : S5000x16.Idx) (q : dot_S5000x128_S128x16_S5000x16_1_0_0_1_n_n.contr.Idx) : (dot_S5000x128_S128x16_S5000x16_1_0_0_1_n_n.lhsIdx i q 1).val = (q ⟨0, by decide⟩).val :=
  dot_S5000x128_S128x16_S5000x16_1_0_0_1_n_n.lhsIdx_val_of_single rfl i q
/-- The right operand's index: row `q`, column `i 1`. -/
theorem rhs0_dot_S5000x128_S128x16_S5000x16_1_0_0_1_n_n (i : S5000x16.Idx) (q : dot_S5000x128_S128x16_S5000x16_1_0_0_1_n_n.contr.Idx) : (dot_S5000x128_S128x16_S5000x16_1_0_0_1_n_n.rhsIdx i q 0).val = (q ⟨0, by decide⟩).val :=
  dot_S5000x128_S128x16_S5000x16_1_0_0_1_n_n.rhsIdx_val_of_single rfl i q
theorem rhs1_dot_S5000x128_S128x16_S5000x16_1_0_0_1_n_n (i : S5000x16.Idx) (q : dot_S5000x128_S128x16_S5000x16_1_0_0_1_n_n.contr.Idx) : (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- On the extended reals the product of an [5000, 128] and a [128, 16] matrix reads, at (p, q), the sum over k of the
    left factor at (p, k) times the right factor at (k, q). -/
theorem matmul_dot_S5000x128_S128x16_S5000x16_1_0_0_1_n_n_apply {φ₁ φ₂ : FTy} (l : FVec Ideal S5000x128 φ₁) (r : FVec Ideal S128x16 φ₂) (p : Fin 5000) (q : Fin 16) :
    FloatOps.matmul dot_S5000x128_S128x16_S5000x16_1_0_0_1_n_n none l r (constant (F := Ideal) S5000x16 .f32 0x00000000#32) (ix2 p q) = ∑ k : Fin 128, l (ix2 p k) * r (ix2 k q) := by
  rw [Ideal.matmul_constant_zero_apply, ← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx (ix2 p q) ((ValueIdx.contrEquiv1 dot_S5000x128_S128x16_S5000x16_1_0_0_1_n_n 128 rfl rfl).symm k) = ix2 p k := funext fun a => Fin.ext (by
    match a with
    | ⟨0, _⟩ => exact lhs0_dot_S5000x128_S128x16_S5000x16_1_0_0_1_n_n _ _
    | ⟨1, _⟩ => exact (lhs1_dot_S5000x128_S128x16_S5000x16_1_0_0_1_n_n _ _).trans hk)
  have er : dot_S5000x128_S128x16_S5000x16_1_0_0_1_n_n.rhsIdx (ix2 p q) ((ValueIdx.contrEquiv1 dot_S5000x128_S128x16_S5000x16_1_0_0_1_n_n 128 rfl rfl).symm k) = ix2 k q := funext fun a => Fin.ext (by
    match a with
    | ⟨0, _⟩ => exact (rhs0_dot_S5000x128_S128x16_S5000x16_1_0_0_1_n_n _ _).trans hk
    | ⟨1, _⟩ => exact rhs1_dot_S5000x128_S128x16_S5000x16_1_0_0_1_n_n _ _)
  rw [el, er]

end Cert.KernelIdeal.Hand

end
-- ==== Proof.PayHidden.lean ====
/-
  The hidden layers' body as one function of its five loaded blocks, entry by entry.  A block of 5000 aggregated rows `a`
  and the same rows `x` of the features meet the two resident weight matrices and the bias row:
  entry (p, q) is  max ((∑ₖ a(p,k)·Wl(k,q)) + (∑ₖ x(p,k)·Wr(k,q)) + b(0,q), 0)  on the extended reals — the narrowing of the
  operands to bf16 before each product is the identity there.
-/
import proofs.«117211_j47648367182185_1_alg».proof.Proof.KDots
import proofs.«117211_j47648367182185_1_alg».proof.Proof.Gen.KernelIdeal.Skeleton
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-- One entry of a hidden layer: the two row-by-column sums, the bias, and the rectifier against the zero word. -/
def hiddenAt (a x wl wr : Fin 128 → EReal) (b : EReal) : EReal :=
  max ((∑ k : Fin 128, a k * wl k) + (∑ k : Fin 128, x k * wr k) + b) (Ideal.ofBits .f32 0x00000000#32)

/-- The first layer's stored value at (p, q). -/
theorem pay0_apply (x0 x1 : Vec Ideal S5000x128 .f32) (x2 x3 : Vec Ideal S128x128 .f32) (x4 : Vec Ideal S1x128 .f32)
    (p : Fin 5000) (q : Fin 128) :
    k0_pay1 x0 x1 x2 x3 x4 (ix2 p q)
      = hiddenAt (fun k => x0 (ix2 p k)) (fun k => x1 (ix2 p k)) (fun k => x2 (ix2 k q)) (fun k => x3 (ix2 k q)) (x4 (ix2 0 q)) := by
  unfold k0_pay1 hiddenAt
  simp only [shapeCast_self]
  show max ((FloatOps.matmul (F := Ideal) dot_S5000x128_S128x128_S5000x128_1_0_0_1_n_n none _ _ _ (ix2 p q)
        + FloatOps.matmul (F := Ideal) dot_S5000x128_S128x128_S5000x128_1_0_0_1_n_n none _ _ _ (ix2 p q))
      + broadcastTo S5000x128 x4 broadcasts_S1x128_S5000x128 (ix2 p q)) (Ideal.ofBits .f32 0x00000000#32) = _
  rw [matmul_dot_S5000x128_S128x128_S5000x128_1_0_0_1_n_n_apply, matmul_dot_S5000x128_S128x128_S5000x128_1_0_0_1_n_n_apply,
    broadcastTo_1b_ab_apply]
  rfl

/-- The second layer's stored value at (p, q): the same function. -/
theorem pay1_apply (x0 x1 : Vec Ideal S5000x128 .f32) (x2 x3 : Vec Ideal S128x128 .f32) (x4 : Vec Ideal S1x128 .f32)
    (p : Fin 5000) (q : Fin 128) :
    k1_pay1 x0 x1 x2 x3 x4 (ix2 p q)
      = hiddenAt (fun k => x0 (ix2 p k)) (fun k => x1 (ix2 p k)) (fun k => x2 (ix2 k q)) (fun k => x3 (ix2 k q)) (x4 (ix2 0 q)) := by
  unfold k1_pay1 hiddenAt
  simp only [shapeCast_self]
  show max ((FloatOps.matmul (F := Ideal) dot_S5000x128_S128x128_S5000x128_1_0_0_1_n_n none _ _ _ (ix2 p q)
        + FloatOps.matmul (F := Ideal) dot_S5000x128_S128x128_S5000x128_1_0_0_1_n_n none _ _ _ (ix2 p q))
      + broadcastTo S5000x128 x4 broadcasts_S1x128_S5000x128 (ix2 p q)) (Ideal.ofBits .f32 0x00000000#32) = _
  rw [matmul_dot_S5000x128_S128x128_S5000x128_1_0_0_1_n_n_apply, matmul_dot_S5000x128_S128x128_S5000x128_1_0_0_1_n_n_apply,
    broadcastTo_1b_ab_apply]
  rfl

end Cert.KernelIdeal.Hand

end
-- ==== Proof.Blocks0.lean ====
/-
  From blocks to the array, for the first hidden layer.  The grid has 20 points; point t stages rows 5000·t … 5000·t + 4999
  of the aggregated features and of the layer's input, the two whole weight matrices and the bias row, and writes back rows
  5000·t … of the output.  So every output entry (r, q) is written exactly by point r / 5000, with the hidden layer's
  function of row r of the two inputs: the array after the region is that function of the arrays the region found.
-/
import proofs.«117211_j47648367182185_1_alg».proof.Proof.PayHidden
import proofs.«117211_j47648367182185_1_alg».proof.Proof.Gen.KernelIdeal.Frame
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- A hidden layer as one function of whole arrays: entry (r, q) from row r of the aggregated features `A` and of the
    layer's input `X`, column q of the two (already transposed) weight matrices, and the bias row. -/
def hidden (A X : S100000x128.Idx → EReal) (Wl Wr : S128x128.Idx → EReal) (b : S1x128.Idx → EReal) : S100000x128.Idx → EReal :=
  fun i => hiddenAt (fun k => A (ix2 (i 0) k)) (fun k => X (ix2 (i 0) k)) (fun k => Wl (ix2 k (i 1))) (fun k => Wr (ix2 k (i 1))) (b (ix2 0 (i 1)))

/-- The printed index maps over the grid: the two row windows and the output move with the point, the resident windows stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row window's block at point t is rows 5000·t … of its array. -/
theorem rows0_0 (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_v22 : S100000x128.Idx → EReal) i := by
  obtain ⟨e0, e1, -⟩ := idx_facts0 t
  unfold iblk0
  rw [View.read_apply]
  show V c main_v22 _ = V c main_v22 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega
theorem rows0_1 (c : Dev nD) (t : Fin cfg0.N) (y : S5000x128.Idx) (i : S100000x128.Idx)
    (h0 : (i 0).val = t.val * 5000 + (y 0).val) (h1 : (i 1).val = (y 1).val) :
    (iblk0 V c 1 t : Vec Ideal S5000x128 .f32) y = (V c main_arg0 : S100000x128.Idx → EReal) i := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega
/-- A resident window's block is its whole array, at every point. -/
theorem whole0_2 (c : Dev nD) (t : Fin cfg0.N) (y : S128x128.Idx) :
    (iblk0 V c 2 t : Vec Ideal S128x128 .f32) y = (V c main_v23 : S128x128.Idx → EReal) y := by
  obtain ⟨-, -, -, -, e0, e1, -⟩ := idx_facts0 t
  unfold iblk0
  rw [View.read_apply]
  show V c main_v23 _ = V c main_v23 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega
theorem whole0_3 (c : Dev nD) (t : Fin cfg0.N) (y : S128x128.Idx) :
    (iblk0 V c 3 t : Vec Ideal S128x128 .f32) y = (V c main_v24 : S128x128.Idx → EReal) y := by
  obtain ⟨-, -, -, -, -, -, e0, e1, -⟩ := idx_facts0 t
  unfold iblk0
  rw [View.read_apply]
  show V c main_v24 _ = V c main_v24 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega
theorem whole0_4 (c : Dev nD) (t : Fin cfg0.N) (y : S1x128.Idx) :
    (iblk0 V c 4 t : Vec Ideal S1x128 .f32) y = (V c main_v25 : S1x128.Idx → EReal) y := by
  obtain ⟨-, -, -, -, -, -, -, -, e0, e1, -⟩ := idx_facts0 t
  unfold iblk0
  rw [View.read_apply]
  show V c main_v25 _ = V c main_v25 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- What point t writes back is block t of the layer's function of the arrays the region found. -/
theorem flushed0_eq (c : Dev nD) (t : Fin cfg0.N) :
    (dat0 V c).flushed 5 t = ((cfg0.win 5).blk t).view.read (Elt Ideal)
      (hidden (V c main_v22) (V c main_arg0) (V c main_v23) (V c main_v24) (V c main_v25)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S1x128) hz2]
  obtain ⟨-, -, -, -, -, -, -, -, -, -, e0, e1⟩ := idx_facts0 t
  funext j
  show k0_pay1 (iblk0 V c 0 t) (iblk0 V c 1 t) (iblk0 V c 2 t) (iblk0 V c 3 t) (iblk0 V c 4 t) j
    = hidden (V c main_v22) (V c main_arg0) (V c main_v23) (V c main_v24) (V c main_v25) (((cfg0.win 5).blk t).view.emb j)
  have hj : (j : S5000x128.Idx) = ix2 (j 0) (j 1) := eq_ix2 (n0 := 5000) (n1 := 128) j
  have hr0 : ((((cfg0.win 5).blk t).view.emb j) 0).val = t.val * 5000 + (j 0).val := by
    show win0_5.index t (0 : Fin 2) * 5000 + 1 * (j 0).val = _; rw [e0]; omega
  have hr1 : ((((cfg0.win 5).blk t).view.emb j) 1).val = (j 1).val := by
    show win0_5.index t (1 : Fin 2) * 128 + 1 * (j 1).val = _; rw [e1]; omega
  refine (congrArg (k0_pay1 (iblk0 V c 0 t) (iblk0 V c 1 t) (iblk0 V c 2 t) (iblk0 V c 3 t) (iblk0 V c 4 t)) hj).trans ?_
  refine (pay0_apply (iblk0 V c 0 t) (iblk0 V c 1 t) (iblk0 V c 2 t) (iblk0 V c 3 t) (iblk0 V c 4 t) (j 0) (j 1)).trans ?_
  unfold hidden
  have ea : (fun k : Fin 128 => (iblk0 V c 0 t : Vec Ideal S5000x128 .f32) (ix2 (j 0) k))
      = fun k : Fin 128 => (V c main_v22 : S100000x128.Idx → EReal) (ix2 ((((cfg0.win 5).blk t).view.emb j) 0) k) :=
    funext fun k => rows0_0 V c t (ix2 (j 0) k) _ hr0 rfl
  have ex : (fun k : Fin 128 => (iblk0 V c 1 t : Vec Ideal S5000x128 .f32) (ix2 (j 0) k))
      = fun k : Fin 128 => (V c main_arg0 : S100000x128.Idx → EReal) (ix2 ((((cfg0.win 5).blk t).view.emb j) 0) k) :=
    funext fun k => rows0_1 V c t (ix2 (j 0) k) _ hr0 rfl
  have hq : (j 1 : Fin 128) = (((cfg0.win 5).blk t).view.emb j) 1 := Fin.ext hr1.symm
  have el : (fun k : Fin 128 => (iblk0 V c 2 t : Vec Ideal S128x128 .f32) (ix2 k (j 1)))
      = fun k : Fin 128 => (V c main_v23 : S128x128.Idx → EReal) (ix2 k ((((cfg0.win 5).blk t).view.emb j) 1)) :=
    funext fun k => (whole0_2 V c t _).trans (by rw [hq])
  have er : (fun k : Fin 128 => (iblk0 V c 3 t : Vec Ideal S128x128 .f32) (ix2 k (j 1)))
      = fun k : Fin 128 => (V c main_v24 : S128x128.Idx → EReal) (ix2 k ((((cfg0.win 5).blk t).view.emb j) 1)) :=
    funext fun k => (whole0_3 V c t _).trans (by rw [hq])
  have eb : (iblk0 V c 4 t : Vec Ideal S1x128 .f32) (ix2 0 (j 1))
      = (V c main_v25 : S1x128.Idx → EReal) (ix2 0 ((((cfg0.win 5).blk t).view.emb j) 1)) :=
    (whole0_4 V c t _).trans (by rw [hq])
  rw [ea, ex, el, er, eb]

/-- An index of the output array is in point t's block iff each coordinate is in the block's range. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The output array after the region: the layer's function of the arrays the region found. -/
theorem final0 (c : Dev nD) :
    (dat0 V c).arrAt 5 cfg0.N = hidden (V c main_v22) (V c main_arg0) (V c main_v23) (V c main_v24) (V c main_v25) :=
  (dat0 V c).arrAt_eq_of_cover 5 _ (fun t _ => flushed0_eq V c t) fun i => by
    have hi0 : (i 0).val < 100000 := (i 0).isLt
    have hi1 : (i 1).val < 128 := (i 1).isLt
    have hN : grid0.N = 20 := N_0
    let t : Fin cfg0.N := ⟨(i 0).val / 5000, by show (i 0).val / 5000 < grid0.N; rw [hN]; omega⟩
    obtain ⟨-, -, -, -, -, -, -, -, -, -, e0, e1⟩ := idx_facts0 t
    refine ⟨t, flush0_5 t, ?_⟩
    rw [mem_blk0]
    intro a
    match a with
    | ⟨0, _⟩ =>
      show win0_5.index t (0 : Fin 2) * 5000 ≤ (i 0).val ∧ (i 0).val < win0_5.index t (0 : Fin 2) * 5000 + 5000
      rw [e0]; show (i 0).val / 5000 * 5000 ≤ (i 0).val ∧ (i 0).val < (i 0).val / 5000 * 5000 + 5000; omega
    | ⟨1, _⟩ =>
      show win0_5.index t (1 : Fin 2) * 128 ≤ (i 1).val ∧ (i 1).val < win0_5.index t (1 : Fin 2) * 128 + 128
      rw [e1]; omega

end Cert.KernelIdeal.Hand

end
-- ==== Proof.Blocks1.lean ====
/-
  From blocks to the array, for the second hidden layer.  The grid has 20 points; point t stages rows 5000·t … 5000·t + 4999
  of the aggregated features and of the layer's input, the two whole weight matrices and the bias row, and writes back rows
  5000·t … of the output.  So every output entry (r, q) is written exactly by point r / 5000, with the hidden layer's
  function of row r of the two inputs: the array after the region is that function of the arrays the region found.
-/
import proofs.«117211_j47648367182185_1_alg».proof.Proof.PayHidden
import proofs.«117211_j47648367182185_1_alg».proof.Proof.Blocks0
import proofs.«117211_j47648367182185_1_alg».proof.Proof.Gen.KernelIdeal.Frame
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the two row windows and the output move with the point, the resident windows stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A row window's block at point t is rows 5000·t … of its array. -/
theorem rows1_0 (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v45 : S100000x128.Idx → EReal) i := by
  obtain ⟨e0, e1, -⟩ := idx_facts1 t
  unfold iblk1
  rw [View.read_apply]
  show V c main_v45 _ = V c main_v45 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega
theorem rows1_1 (c : Dev nD) (t : Fin cfg1.N) (y : S5000x128.Idx) (i : S100000x128.Idx)
    (h0 : (i 0).val = t.val * 5000 + (y 0).val) (h1 : (i 1).val = (y 1).val) :
    (iblk1 V c 1 t : Vec Ideal S5000x128 .f32) y = (V c main_v26 : S100000x128.Idx → EReal) i := by
  obtain ⟨-, -, e0, e1, -⟩ := idx_facts1 t
  unfold iblk1
  rw [View.read_apply]
  show V c main_v26 _ = V c main_v26 _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega
/-- A resident window's block is its whole array, at every point. -/
theorem whole1_2 (c : Dev nD) (t : Fin cfg1.N) (y : S128x128.Idx) :
    (iblk1 V c 2 t : Vec Ideal S128x128 .f32) y = (V c main_v46 : S128x128.Idx → EReal) y := by
  obtain ⟨-, -, -, -, e0, e1, -⟩ := idx_facts1 t
  unfold iblk1
  rw [View.read_apply]
  show V c main_v46 _ = V c main_v46 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega
theorem whole1_3 (c : Dev nD) (t : Fin cfg1.N) (y : S128x128.Idx) :
    (iblk1 V c 3 t : Vec Ideal S128x128 .f32) y = (V c main_v47 : S128x128.Idx → EReal) y := by
  obtain ⟨-, -, -, -, -, -, e0, e1, -⟩ := idx_facts1 t
  unfold iblk1
  rw [View.read_apply]
  show V c main_v47 _ = V c main_v47 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega
theorem whole1_4 (c : Dev nD) (t : Fin cfg1.N) (y : S1x128.Idx) :
    (iblk1 V c 4 t : Vec Ideal S1x128 .f32) y = (V c main_v48 : S1x128.Idx → EReal) y := by
  obtain ⟨-, -, -, -, -, -, -, -, e0, e1, -⟩ := idx_facts1 t
  unfold iblk1
  rw [View.read_apply]
  show V c main_v48 _ = V c main_v48 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What point t writes back is block t of the layer's function of the arrays the region found. -/
theorem flushed1_eq (c : Dev nD) (t : Fin cfg1.N) :
    (dat1 V c).flushed 5 t = ((cfg1.win 5).blk t).view.read (Elt Ideal)
      (hidden (V c main_v45) (V c main_v26) (V c main_v46) (V c main_v47) (V c main_v48)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S1x128) hz2]
  obtain ⟨-, -, -, -, -, -, -, -, -, -, e0, e1⟩ := idx_facts1 t
  funext j
  show k1_pay1 (iblk1 V c 0 t) (iblk1 V c 1 t) (iblk1 V c 2 t) (iblk1 V c 3 t) (iblk1 V c 4 t) j
    = hidden (V c main_v45) (V c main_v26) (V c main_v46) (V c main_v47) (V c main_v48) (((cfg1.win 5).blk t).view.emb j)
  have hj : (j : S5000x128.Idx) = ix2 (j 0) (j 1) := eq_ix2 (n0 := 5000) (n1 := 128) j
  have hr0 : ((((cfg1.win 5).blk t).view.emb j) 0).val = t.val * 5000 + (j 0).val := by
    show win1_5.index t (0 : Fin 2) * 5000 + 1 * (j 0).val = _; rw [e0]; omega
  have hr1 : ((((cfg1.win 5).blk t).view.emb j) 1).val = (j 1).val := by
    show win1_5.index t (1 : Fin 2) * 128 + 1 * (j 1).val = _; rw [e1]; omega
  refine (congrArg (k1_pay1 (iblk1 V c 0 t) (iblk1 V c 1 t) (iblk1 V c 2 t) (iblk1 V c 3 t) (iblk1 V c 4 t)) hj).trans ?_
  refine (pay1_apply (iblk1 V c 0 t) (iblk1 V c 1 t) (iblk1 V c 2 t) (iblk1 V c 3 t) (iblk1 V c 4 t) (j 0) (j 1)).trans ?_
  unfold hidden
  have ea : (fun k : Fin 128 => (iblk1 V c 0 t : Vec Ideal S5000x128 .f32) (ix2 (j 0) k))
      = fun k : Fin 128 => (V c main_v45 : S100000x128.Idx → EReal) (ix2 ((((cfg1.win 5).blk t).view.emb j) 0) k) :=
    funext fun k => rows1_0 V c t (ix2 (j 0) k) _ hr0 rfl
  have ex : (fun k : Fin 128 => (iblk1 V c 1 t : Vec Ideal S5000x128 .f32) (ix2 (j 0) k))
      = fun k : Fin 128 => (V c main_v26 : S100000x128.Idx → EReal) (ix2 ((((cfg1.win 5).blk t).view.emb j) 0) k) :=
    funext fun k => rows1_1 V c t (ix2 (j 0) k) _ hr0 rfl
  have hq : (j 1 : Fin 128) = (((cfg1.win 5).blk t).view.emb j) 1 := Fin.ext hr1.symm
  have el : (fun k : Fin 128 => (iblk1 V c 2 t : Vec Ideal S128x128 .f32) (ix2 k (j 1)))
      = fun k : Fin 128 => (V c main_v46 : S128x128.Idx → EReal) (ix2 k ((((cfg1.win 5).blk t).view.emb j) 1)) :=
    funext fun k => (whole1_2 V c t _).trans (by rw [hq])
  have er : (fun k : Fin 128 => (iblk1 V c 3 t : Vec Ideal S128x128 .f32) (ix2 k (j 1)))
      = fun k : Fin 128 => (V c main_v47 : S128x128.Idx → EReal) (ix2 k ((((cfg1.win 5).blk t).view.emb j) 1)) :=
    funext fun k => (whole1_3 V c t _).trans (by rw [hq])
  have eb : (iblk1 V c 4 t : Vec Ideal S1x128 .f32) (ix2 0 (j 1))
      = (V c main_v48 : S1x128.Idx → EReal) (ix2 0 ((((cfg1.win 5).blk t).view.emb j) 1)) :=
    (whole1_4 V c t _).trans (by rw [hq])
  rw [ea, ex, el, er, eb]

/-- An index of the output array is in point t's block iff each coordinate is in the block's range. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- The output array after the region: the layer's function of the arrays the region found. -/
theorem final1 (c : Dev nD) :
    (dat1 V c).arrAt 5 cfg1.N = hidden (V c main_v45) (V c main_v26) (V c main_v46) (V c main_v47) (V c main_v48) :=
  (dat1 V c).arrAt_eq_of_cover 5 _ (fun t _ => flushed1_eq V c t) fun i => by
    have hi0 : (i 0).val < 100000 := (i 0).isLt
    have hi1 : (i 1).val < 128 := (i 1).isLt
    have hN : grid1.N = 20 := N_1
    let t : Fin cfg1.N := ⟨(i 0).val / 5000, by show (i 0).val / 5000 < grid1.N; rw [hN]; omega⟩
    obtain ⟨-, -, -, -, -, -, -, -, -, -, e0, e1⟩ := idx_facts1 t
    refine ⟨t, flush1_5 t, ?_⟩
    rw [mem_blk1]
    intro a
    match a with
    | ⟨0, _⟩ =>
      show win1_5.index t (0 : Fin 2) * 5000 ≤ (i 0).val ∧ (i 0).val < win1_5.index t (0 : Fin 2) * 5000 + 5000
      rw [e0]; show (i 0).val / 5000 * 5000 ≤ (i 0).val ∧ (i 0).val < (i 0).val / 5000 * 5000 + 5000; omega
    | ⟨1, _⟩ =>
      show win1_5.index t (1 : Fin 2) * 128 ≤ (i 1).val ∧ (i 1).val < win1_5.index t (1 : Fin 2) * 128 + 128
      rw [e1]; omega

end Cert.KernelIdeal.Hand

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.PayOut.lean ====
/-
  The last layer's body as one function of its five loaded blocks, entry by entry.  Row p of the block first gets its sixteen
  pre-activations  z(p,q) = (∑ₖ a(p,k)·Wl(k,q)) + (∑ₖ x(p,k)·Wr(k,q)) + b(0,q);  then the row's maximum M(p) (the fold of max
  from −∞ over the sixteen lanes) is taken away, and the logarithm of the row's sum of exponentials of the shifted values is
  taken away from the shifted values:  out(p,q) = (z(p,q) − M(p)) − log ∑ₖ exp (z(p,k) − M(p)).
-/
import proofs.«117211_j47648367182185_1_alg».proof.Proof.KDots
import proofs.«117211_j47648367182185_1_alg».proof.Proof.LibColumns
import proofs.«117211_j47648367182185_1_alg».proof.Proof.Gen.KernelIdeal.Skeleton
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-- One pre-activation: the two row-by-column sums and the bias. -/
def linAt (a x wl wr : Fin 128 → EReal) (b : EReal) : EReal :=
  (∑ k : Fin 128, a k * wl k) + (∑ k : Fin 128, x k * wr k) + b

/-- A row's maximum, folded from the word of −∞. -/
def rowMax (z : Fin 16 → EReal) : EReal :=
  (Finset.univ : Finset (Fin 16)).fold max (Ideal.ofBits .f32 0xFF800000#32) z

/-- The log-softmax of a row of sixteen, at lane q. -/
def logSoftmaxAt (z : Fin 16 → EReal) (q : Fin 16) : EReal :=
  (z q - rowMax z) - Ideal.log (∑ k : Fin 16, Ideal.exp (z k - rowMax z))

/-- The reduced index p with lane k put back is (p, k). -/
theorem lift_row (h : S5000x16.Reduces [1] S5000) (p : Fin 5000) (k : Fin (S5000x16.size 1)) :
    h.lift (ix1 p) k = ix2 p (⟨k.val, k.isLt⟩ : Fin 16) := by
  funext c; apply Fin.ext
  fin_cases c <;> rfl

/-- A row's maximum as the body takes it, kept as a column and spread over the lanes. -/
theorem maxcol_apply (z : FVec Ideal S5000x16 .f32) (p : Fin 5000) (q : Fin 16) :
    broadcastTo S5000x16 (shapeCast S5000x1 (multiReduction .maximumf [1] S5000 z 0xFF800000#32 reduces_S5000x16_S5000 (.inl rfl) rfl)
      shapeCasts_S5000_S5000x1) broadcasts_S5000x1_S5000x16 (ix2 p q) = rowMax fun k => z (ix2 p k) := by
  refine (Cert.Columns.broadcastTo_a1_ab_apply _ _ p q).trans ?_
  refine (Cert.Columns.shapeCast_a_a1_apply _ _ p 0).trans ?_
  refine (Ideal.multiReduction_maximumf_single z 0xFF800000#32 reduces_S5000x16_S5000 (.inl rfl) rfl (ix1 p)).trans ?_
  unfold rowMax
  have hf : (z ∘ reduces_S5000x16_S5000.lift (ix1 p)) = fun k : Fin 16 => z (ix2 p k) :=
    funext fun k => congrArg z (lift_row reduces_S5000x16_S5000 p k)
  exact congrArg (fun f => Finset.fold max (Ideal.ofBits .f32 0xFF800000#32) f (Finset.univ : Finset (Fin 16))) hf

/-- A row's sum as the body takes it, kept as a column, its logarithm spread over the lanes. -/
theorem logsumcol_apply (e : FVec Ideal S5000x16 .f32) (p : Fin 5000) (q : Fin 16) :
    broadcastTo S5000x16 (log (shapeCast S5000x1 (multiReduction .add [1] S5000 e 0x00000000#32 reduces_S5000x16_S5000 (.inl rfl) rfl)
      shapeCasts_S5000_S5000x1)) broadcasts_S5000x1_S5000x16 (ix2 p q) = Ideal.log (∑ k : Fin 16, e (ix2 p k)) := by
  refine (Cert.Columns.broadcastTo_a1_ab_apply _ _ p q).trans ?_
  show Ideal.log (shapeCast S5000x1 (multiReduction .add [1] S5000 e 0x00000000#32 reduces_S5000x16_S5000 (.inl rfl) rfl) shapeCasts_S5000_S5000x1 (ix2 p 0)) = _
  refine congrArg Ideal.log ?_
  refine (Cert.Columns.shapeCast_a_a1_apply _ _ p 0).trans ?_
  refine (Ideal.multiReduction_add_single e 0x00000000#32 reduces_S5000x16_S5000 (.inl rfl) rfl (ix1 p)).trans ?_
  exact Finset.sum_congr rfl fun k _ => congrArg e (lift_row reduces_S5000x16_S5000 p k)

/-- The body's log-softmax tail over any [5000, 16] value. -/
theorem lsm_apply (z : FVec Ideal S5000x16 .f32) (p : Fin 5000) (q : Fin 16) :
    subf (subf z (broadcastTo S5000x16 (shapeCast S5000x1 (multiReduction .maximumf [1] S5000 z 0xFF800000#32 reduces_S5000x16_S5000 (.inl rfl) rfl) shapeCasts_S5000_S5000x1) broadcasts_S5000x1_S5000x16))
      (broadcastTo S5000x16 (log (shapeCast S5000x1 (multiReduction .add [1] S5000
        (exp (subf z (broadcastTo S5000x16 (shapeCast S5000x1 (multiReduction .maximumf [1] S5000 z 0xFF800000#32 reduces_S5000x16_S5000 (.inl rfl) rfl) shapeCasts_S5000_S5000x1) broadcasts_S5000x1_S5000x16)))
        0x00000000#32 reduces_S5000x16_S5000 (.inl rfl) rfl) shapeCasts_S5000_S5000x1)) broadcasts_S5000x1_S5000x16) (ix2 p q)
      = logSoftmaxAt (fun k => z (ix2 p k)) q := by
  show (z (ix2 p q) - broadcastTo S5000x16 _ broadcasts_S5000x1_S5000x16 (ix2 p q)) - broadcastTo S5000x16 (log _) broadcasts_S5000x1_S5000x16 (ix2 p q) = _
  rw [maxcol_apply, logsumcol_apply]
  unfold logSoftmaxAt
  refine congrArg (fun s => (z (ix2 p q) - rowMax fun k => z (ix2 p k)) - Ideal.log s) ?_
  refine Finset.sum_congr rfl fun k _ => ?_
  show Ideal.exp (z (ix2 p k) - broadcastTo S5000x16 _ broadcasts_S5000x1_S5000x16 (ix2 p k)) = _
  rw [maxcol_apply]

/-- The last layer's pre-activation at (p, q). -/
theorem lin2_apply (x0 x1 : Vec Ideal S5000x128 .f32) (x2 x3 : Vec Ideal S128x16 .f32) (x4 : Vec Ideal S1x16 .f32) (p : Fin 5000) (q : Fin 16) :
    (addf (addf (matmul dot_S5000x128_S128x16_S5000x16_1_0_0_1_n_n none (truncf .bf16 x0 bitsLt_bf16_f32) (truncf .bf16 x2 bitsLt_bf16_f32) (constant S5000x16 .f32 0x00000000#32))
        (matmul dot_S5000x128_S128x16_S5000x16_1_0_0_1_n_n none (truncf .bf16 x1 bitsLt_bf16_f32) (truncf .bf16 x3 bitsLt_bf16_f32) (constant S5000x16 .f32 0x00000000#32)))
      (broadcastTo S5000x16 x4 broadcasts_S1x16_S5000x16) : FVec Ideal S5000x16 .f32) (ix2 p q)
      = linAt (fun k => x0 (ix2 p k)) (fun k => x1 (ix2 p k)) (fun k => x2 (ix2 k q)) (fun k => x3 (ix2 k q)) (x4 (ix2 0 q)) := by
  unfold linAt
  show (FloatOps.matmul (F := Ideal) dot_S5000x128_S128x16_S5000x16_1_0_0_1_n_n none _ _ _ (ix2 p q)
        + FloatOps.matmul (F := Ideal) dot_S5000x128_S128x16_S5000x16_1_0_0_1_n_n none _ _ _ (ix2 p q))
      + broadcastTo S5000x16 x4 broadcasts_S1x16_S5000x16 (ix2 p q) = _
  rw [matmul_dot_S5000x128_S128x16_S5000x16_1_0_0_1_n_n_apply, matmul_dot_S5000x128_S128x16_S5000x16_1_0_0_1_n_n_apply,
    broadcastTo_1b_ab_apply]
  rfl

/-- The last layer's stored value at (p, q). -/
theorem pay2_apply (x0 x1 : Vec Ideal S5000x128 .f32) (x2 x3 : Vec Ideal S128x16 .f32) (x4 : Vec Ideal S1x16 .f32) (p : Fin 5000) (q : Fin 16) :
    k2_pay1 x0 x1 x2 x3 x4 (ix2 p q)
      = logSoftmaxAt (fun j => linAt (fun k => x0 (ix2 p k)) (fun k => x1 (ix2 p k)) (fun k => x2 (ix2 k j)) (fun k => x3 (ix2 k j)) (x4 (ix2 0 j))) q := by
  unfold k2_pay1
  simp only [shapeCast_self]
  refine (lsm_apply _ p q).trans ?_
  exact congrArg (fun f => logSoftmaxAt f q) (funext fun j => lin2_apply x0 x1 x2 x3 x4 p j)

end Cert.KernelIdeal.Hand

end
-- ==== Proof.Blocks2.lean ====
/-
  From blocks to the array, for the last layer.  Point t of the 20 stages rows 5000·t … 5000·t + 4999 of the aggregated
  features and of the layer's input, the two whole [128, 16] weight matrices and the bias row, and writes back the same rows
  of the [100000, 16] output: entry (r, q) is the log-softmax, at lane q, of row r's sixteen pre-activations.
-/
import proofs.«117211_j47648367182185_1_alg».proof.Proof.PayOut
import proofs.«117211_j47648367182185_1_alg».proof.Proof.Gen.KernelIdeal.Frame
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The last layer as one function of whole arrays: entry (r, q) is the log-softmax at lane q of row r's pre-activations. -/
def outLayer (A X : S100000x128.Idx → EReal) (Wl Wr : S128x16.Idx → EReal) (b : S1x16.Idx → EReal) : S100000x16.Idx → EReal :=
  fun i => logSoftmaxAt (fun j => linAt (fun k => A (ix2 (i 0) k)) (fun k => X (ix2 (i 0) k)) (fun k => Wl (ix2 k j)) (fun k => Wr (ix2 k j)) (b (ix2 0 j))) (i 1)

/-- The printed index maps over the grid: the two row windows and the output move with the point, the resident windows stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A row window's block at point t is rows 5000·t … of its array. -/
theorem rows2_0 (c : Dev nD) (t : Fin cfg2.N) (y : S5000x128.Idx) (i : S100000x128.Idx)
    (h0 : (i 0).val = t.val * 5000 + (y 0).val) (h1 : (i 1).val = (y 1).val) :
    (iblk2 V c 0 t : Vec Ideal S5000x128 .f32) y = (V c main_v68 : S100000x128.Idx → EReal) i := by
  obtain ⟨e0, e1, -⟩ := idx_facts2 t
  unfold iblk2
  rw [View.read_apply]
  show V c main_v68 _ = V c main_v68 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega
theorem rows2_1 (c : Dev nD) (t : Fin cfg2.N) (y : S5000x128.Idx) (i : S100000x128.Idx)
    (h0 : (i 0).val = t.val * 5000 + (y 0).val) (h1 : (i 1).val = (y 1).val) :
    (iblk2 V c 1 t : Vec Ideal S5000x128 .f32) y = (V c main_v49 : S100000x128.Idx → EReal) i := by
  obtain ⟨-, -, e0, e1, -⟩ := idx_facts2 t
  unfold iblk2
  rw [View.read_apply]
  show V c main_v49 _ = V c main_v49 _
  congr 1
  funext a
  apply Fin.ext
  match a with
  | ⟨0, _⟩ => show win2_1.index t (0 : Fin 2) * 5000 + 1 * (y 0).val = (i 0).val; rw [e0, h0]; omega
  | ⟨1, _⟩ => show win2_1.index t (1 : Fin 2) * 128 + 1 * (y 1).val = (i 1).val; rw [e1, h1]; omega
/-- A resident window's block is its whole array, at every point. -/
theorem whole2_2 (c : Dev nD) (t : Fin cfg2.N) (y : S128x16.Idx) :
    (iblk2 V c 2 t : Vec Ideal S128x16 .f32) y = (V c main_v69 : S128x16.Idx → EReal) y := by
  obtain ⟨-, -, -, -, e0, e1, -⟩ := idx_facts2 t
  unfold iblk2
  rw [View.read_apply]
  show V c main_v69 _ = V c main_v69 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 16 + 1 * (y 1).val = (y 1).val; rw [e1]; omega
theorem whole2_3 (c : Dev nD) (t : Fin cfg2.N) (y : S128x16.Idx) :
    (iblk2 V c 3 t : Vec Ideal S128x16 .f32) y = (V c main_v70 : S128x16.Idx → EReal) y := by
  obtain ⟨-, -, -, -, -, -, e0, e1, -⟩ := idx_facts2 t
  unfold iblk2
  rw [View.read_apply]
  show V c main_v70 _ = V c main_v70 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 16 + 1 * (y 1).val = (y 1).val; rw [e1]; omega
theorem whole2_4 (c : Dev nD) (t : Fin cfg2.N) (y : S1x16.Idx) :
    (iblk2 V c 4 t : Vec Ideal S1x16 .f32) y = (V c main_v71 : S1x16.Idx → EReal) y := by
  obtain ⟨-, -, -, -, -, -, -, -, e0, e1, -⟩ := idx_facts2 t
  unfold iblk2
  rw [View.read_apply]
  show V c main_v71 _ = V c main_v71 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 16 + 1 * (y 1).val = (y 1).val; rw [e1]; omega

/-- What point t writes back is block t of the layer's function of the arrays the region found. -/
theorem flushed2_eq (c : Dev nD) (t : Fin cfg2.N) :
    (dat2 V c).flushed 5 t = ((cfg2.win 5).blk t).view.read (Elt Ideal)
      (outLayer (V c main_v68) (V c main_v49) (V c main_v69) (V c main_v70) (V c main_v71)) := by
  show (cfg2.win 5).cut (grid2.coords t) ((dat2 V c).after 5 t) = _
  rw [after2_5]
  unfold out2_5
  rw [View.canon_unit_zero hz2']
  simp only [View.ld_unit_zero (S := S5000x128) hz2', View.ld_unit_zero (S := S128x16) hz2', View.ld_unit_zero (S := S1x16) hz2']
  obtain ⟨-, -, -, -, -, -, -, -, -, -, e0, e1⟩ := idx_facts2 t
  funext j
  show k2_pay1 (iblk2 V c 0 t) (iblk2 V c 1 t) (iblk2 V c 2 t) (iblk2 V c 3 t) (iblk2 V c 4 t) j
    = outLayer (V c main_v68) (V c main_v49) (V c main_v69) (V c main_v70) (V c main_v71) (((cfg2.win 5).blk t).view.emb j)
  have hj : (j : S5000x16.Idx) = ix2 (j 0) (j 1) := eq_ix2 (n0 := 5000) (n1 := 16) j
  have hr0 : ((((cfg2.win 5).blk t).view.emb j) 0).val = t.val * 5000 + (j 0).val := by
    show win2_5.index t (0 : Fin 2) * 5000 + 1 * (j 0).val = _; rw [e0]; omega
  have hr1 : ((((cfg2.win 5).blk t).view.emb j) 1).val = (j 1).val := by
    show win2_5.index t (1 : Fin 2) * 16 + 1 * (j 1).val = _; rw [e1]; omega
  refine (congrArg (k2_pay1 (iblk2 V c 0 t) (iblk2 V c 1 t) (iblk2 V c 2 t) (iblk2 V c 3 t) (iblk2 V c 4 t)) hj).trans ?_
  refine (pay2_apply (iblk2 V c 0 t) (iblk2 V c 1 t) (iblk2 V c 2 t) (iblk2 V c 3 t) (iblk2 V c 4 t) (j 0) (j 1)).trans ?_
  unfold outLayer
  have ea : (fun k : Fin 128 => (iblk2 V c 0 t : Vec Ideal S5000x128 .f32) (ix2 (j 0) k))
      = fun k : Fin 128 => (V c main_v68 : S100000x128.Idx → EReal) (ix2 ((((cfg2.win 5).blk t).view.emb j) 0) k) :=
    funext fun k => rows2_0 V c t (ix2 (j 0) k) _ hr0 rfl
  have ex : (fun k : Fin 128 => (iblk2 V c 1 t : Vec Ideal S5000x128 .f32) (ix2 (j 0) k))
      = fun k : Fin 128 => (V c main_v49 : S100000x128.Idx → EReal) (ix2 ((((cfg2.win 5).blk t).view.emb j) 0) k) :=
    funext fun k => rows2_1 V c t (ix2 (j 0) k) _ hr0 rfl
  have hq : (j 1 : Fin 16) = (((cfg2.win 5).blk t).view.emb j) 1 := Fin.ext hr1.symm
  have key : (fun q : Fin 16 => linAt (fun k : Fin 128 => (iblk2 V c 0 t : Vec Ideal S5000x128 .f32) (ix2 (j 0) k))
        (fun k : Fin 128 => (iblk2 V c 1 t : Vec Ideal S5000x128 .f32) (ix2 (j 0) k))
        (fun k : Fin 128 => (iblk2 V c 2 t : Vec Ideal S128x16 .f32) (ix2 k q))
        (fun k : Fin 128 => (iblk2 V c 3 t : Vec Ideal S128x16 .f32) (ix2 k q))
        ((iblk2 V c 4 t : Vec Ideal S1x16 .f32) (ix2 0 q)))
      = fun q : Fin 16 => linAt (fun k : Fin 128 => (V c main_v68 : S100000x128.Idx → EReal) (ix2 ((((cfg2.win 5).blk t).view.emb j) 0) k))
        (fun k : Fin 128 => (V c main_v49 : S100000x128.Idx → EReal) (ix2 ((((cfg2.win 5).blk t).view.emb j) 0) k))
        (fun k : Fin 128 => (V c main_v69 : S128x16.Idx → EReal) (ix2 k q))
        (fun k : Fin 128 => (V c main_v70 : S128x16.Idx → EReal) (ix2 k q))
        ((V c main_v71 : S1x16.Idx → EReal) (ix2 0 q)) :=
    funext fun q => by
      rw [ea, ex, show (fun k : Fin 128 => (iblk2 V c 2 t : Vec Ideal S128x16 .f32) (ix2 k q)) = fun k : Fin 128 => (V c main_v69 : S128x16.Idx → EReal) (ix2 k q)
          from funext fun k => whole2_2 V c t _,
        show (fun k : Fin 128 => (iblk2 V c 3 t : Vec Ideal S128x16 .f32) (ix2 k q)) = fun k : Fin 128 => (V c main_v70 : S128x16.Idx → EReal) (ix2 k q)
          from funext fun k => whole2_3 V c t _,
        whole2_4 V c t _]
  exact congrArg₂ logSoftmaxAt key hq

/-- An index of the output array is in point t's block iff each coordinate is in the block's range. -/
theorem mem_blk2 (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v72).slice (win2_5.rect t)).set ↔ _
  rw [View.set_slice_whole, Rect.mem_set_unit]
  exact Iff.rfl

/-- The output array after the region: the layer's function of the arrays the region found. -/
theorem final2 (c : Dev nD) :
    (dat2 V c).arrAt 5 cfg2.N = outLayer (V c main_v68) (V c main_v49) (V c main_v69) (V c main_v70) (V c main_v71) :=
  (dat2 V c).arrAt_eq_of_cover 5 _ (fun t _ => flushed2_eq V c t) fun i => by
    have hi0 : (i 0).val < 100000 := (i 0).isLt
    have hi1 : (i 1).val < 16 := (i 1).isLt
    have hN : grid2.N = 20 := N_2
    let t : Fin cfg2.N := ⟨(i 0).val / 5000, by show (i 0).val / 5000 < grid2.N; rw [hN]; omega⟩
    obtain ⟨-, -, -, -, -, -, -, -, -, -, e0, e1⟩ := idx_facts2 t
    refine ⟨t, flush2_5 t, ?_⟩
    rw [mem_blk2]
    intro a
    match a with
    | ⟨0, _⟩ =>
      show win2_5.index t (0 : Fin 2) * 5000 ≤ (i 0).val ∧ (i 0).val < win2_5.index t (0 : Fin 2) * 5000 + 5000
      rw [e0]; show (i 0).val / 5000 * 5000 ≤ (i 0).val ∧ (i 0).val < (i 0).val / 5000 * 5000 + 5000; omega
    | ⟨1, _⟩ =>
      show win2_5.index t (1 : Fin 2) * 16 ≤ (i 1).val ∧ (i 1).val < win2_5.index t (1 : Fin 2) * 16 + 16
      rw [e1]; omega

end Cert.KernelIdeal.Hand

end
-- ==== Proof.RefLayers.lean ====
/-
  The reference program's three layers as functions of whole arrays, in the program's own operations.
  `srcOf` / `dstOf`: the two rows of the edge list.  `meanAgg h src dst`: the rows of `h` at the (wrapped) source nodes,
  added up per target node, divided by the number of incoming edges (at least one).  `refHidden`: a hidden layer,
  relu ((mean · Wlᵀ + b) + x · Wrᵀ).  `refOut`: the last layer, the log-softmax of the same affine form over its sixteen lanes.
-/
import proofs.«117211_j47648367182185_1_alg».proof.Proof.Gen.ReferenceIdeal

noncomputable section

namespace Cert.ReferenceIdeal.Hand

open Cert.ReferenceIdeal Cert.ReferenceIdeal.Gen Idealize.ShloMosaic

variable {F : FTy → Type} [FloatOps F]

/-- The source node of every edge: row 0 of the edge list. -/
def srcOf (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000
/-- The target node of every edge: row 1 of the edge list. -/
def dstOf (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- Mean aggregation: gather the source rows (a negative index wrapped by the node count), scatter-add them at the targets,
    divide by the target's in-degree, itself a scatter-add of ones, floored at one. -/
def meanAgg (h : (⟨S100000x128, .f32⟩ : BufTy).Contents (Elt F)) (src dst : (⟨S600000, .i32⟩ : BufTy).Contents (Elt F)) :
    (⟨S100000x128, .f32⟩ : BufTy).Contents (Elt F) :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 dst)
      (Host.gather gather_S100000x128_S600000x1_S600000x128_1_0_n_n_0_1_1128 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 dst)
            (broadcastInDim S600000 ![] bcast_S_S600000 (constant S_ .f32 0x3F800000#32)))
          (broadcastInDim S100000 ![] bcast_S_S100000 (constant S_ .f32 0x3F800000#32)))))

/-- A hidden layer: relu ((mean · Wlᵀ + b) + x · Wrᵀ). -/
def refHidden (mean x : (⟨S100000x128, .f32⟩ : BufTy).Contents (Elt F)) (wl : (⟨S128x128, .f32⟩ : BufTy).Contents (Elt F))
    (b : (⟨S128, .f32⟩ : BufTy).Contents (Elt F)) (wr : (⟨S128x128, .f32⟩ : BufTy).Contents (Elt F)) :
    (⟨S100000x128, .f32⟩ : BufTy).Contents (Elt F) :=
  maximumf
    (addf
      (addf
        (Host.dotGeneral dot_S100000x128_S128x128_S100000x128_1_0_0_1_n_n none mean
          (transpose S128x128 [1, 0] wl transposes_S128x128_S128x128_1_0))
        (broadcastInDim S100000x128 ![0, 1] bcast_S1x128_S100000x128_0_1 (broadcastInDim S1x128 ![1] bcast_S128_S1x128_1 b)))
      (Host.dotGeneral dot_S100000x128_S128x128_S100000x128_1_0_0_1_n_n none x
        (transpose S128x128 [1, 0] wr transposes_S128x128_S128x128_1_0)))
    (broadcastInDim S100000x128 ![] bcast_S_S100000x128 (constant S_ .f32 0x00000000#32))

/-- The last layer's pre-activation: (mean · Wlᵀ + b) + x · Wrᵀ, sixteen lanes. -/
def refLin (mean x : (⟨S100000x128, .f32⟩ : BufTy).Contents (Elt F)) (wl : (⟨S16x128, .f32⟩ : BufTy).Contents (Elt F))
    (b : (⟨S16, .f32⟩ : BufTy).Contents (Elt F)) (wr : (⟨S16x128, .f32⟩ : BufTy).Contents (Elt F)) :
    (⟨S100000x16, .f32⟩ : BufTy).Contents (Elt F) :=
  addf
    (addf
      (Host.dotGeneral dot_S100000x128_S128x16_S100000x16_1_0_0_1_n_n none mean
        (transpose S128x16 [1, 0] wl transposes_S16x128_S128x16_1_0))
      (broadcastInDim S100000x16 ![0, 1] bcast_S1x16_S100000x16_0_1 (broadcastInDim S1x16 ![1] bcast_S16_S1x16_1 b)))
    (Host.dotGeneral dot_S100000x128_S128x16_S100000x16_1_0_0_1_n_n none x
      (transpose S128x16 [1, 0] wr transposes_S16x128_S128x16_1_0))

/-- The row maxima as the reference takes them: the reduce from −∞, then once more against −∞. -/
def refRowMax (z : (⟨S100000x16, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x16_S100000_d1 h_S_)

/-- The values shifted by their row's maximum. -/
def refShift (z : (⟨S100000x16, .f32⟩ : BufTy).Contents (Elt F)) : (⟨S100000x16, .f32⟩ : BufTy).Contents (Elt F) :=
  subf z (broadcastInDim S100000x16 ![0, 1] bcast_S100000x1_S100000x16_0_1
    (broadcastInDim S100000x1 ![0] bcast_S100000_S100000x1_0 (refRowMax z)))

/-- The log-softmax over the sixteen lanes. -/
def refLogSoftmax (z : (⟨S100000x16, .f32⟩ : BufTy).Contents (Elt F)) : (⟨S100000x16, .f32⟩ : BufTy).Contents (Elt F) :=
  subf (refShift z)
    (broadcastInDim S100000x16 ![0, 1] bcast_S100000x1_S100000x16_0_1
      (Host.log (broadcastInDim S100000x1 ![0] bcast_S100000_S100000x1_0
        (Host.reduceAdd (Host.exp (refShift z)) (constant S_ .f32 0x00000000#32) reducesTo_S100000x16_S100000_d1 h_S_))))

end Cert.ReferenceIdeal.Hand

end
-- ==== Proof.KChain.lean ====
/-
  The idealized kernel's result as three nested layers of the arguments.  The buffer contents at the six boundaries of @main
  are followed from the launch memory: a stretch of host operations leaves the mean aggregation of the layer's input, the two
  transposed weight matrices and the bias as a row, and passes everything it does not write; a region replaces its output
  array by the layer's function of the arrays it found and passes the rest.  Read back through the three layers, the result
  array holds  out (agg h₂) h₂  with  h₂ = hidden (agg h₁) h₁,  h₁ = hidden (agg x) x.
-/
import proofs.«117211_j47648367182185_1_alg».proof.Proof.KernelRun
import proofs.«117211_j47648367182185_1_alg».proof.Proof.Blocks0
import proofs.«117211_j47648367182185_1_alg».proof.Proof.Blocks1
import proofs.«117211_j47648367182185_1_alg».proof.Proof.Blocks2
import proofs.«117211_j47648367182185_1_alg».proof.Proof.RefLayers

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Cert.ReferenceIdeal.Hand (meanAgg srcOf dstOf)

/-! ## What each stretch of host operations leaves, from any contents `W` -/

section Stretches

variable {F : FTy → Type} [FloatOps F]
variable (W : Valuation τ sig (Elt F))

theorem h0_v22 : after (hostOps0 (F := F)) W (Proc.devRef .tc main_v22)
    = meanAgg (W (Proc.devRef .tc main_arg0)) (srcOf (W (Proc.devRef .tc main_arg1))) (dstOf (W (Proc.devRef .tc main_arg1))) := by
  after_results_simp
  rfl
theorem h0_arg0 : after (hostOps0 (F := F)) W (Proc.devRef .tc main_arg0) = W (Proc.devRef .tc main_arg0) := by after_results_simp
theorem h0_v23 : after (hostOps0 (F := F)) W (Proc.devRef .tc main_v23)
    = transpose S128x128 [1, 0] (W (Proc.devRef .tc main_arg2)) transposes_S128x128_S128x128_1_0 := by
  after_results_simp
theorem h0_v24 : after (hostOps0 (F := F)) W (Proc.devRef .tc main_v24)
    = transpose S128x128 [1, 0] (W (Proc.devRef .tc main_arg4)) transposes_S128x128_S128x128_1_0 := by
  after_results_simp
theorem h0_v25 : after (hostOps0 (F := F)) W (Proc.devRef .tc main_v25)
    = shapeCast S1x128 (W (Proc.devRef .tc main_arg3)) shapeCasts_S128_S1x128 := by
  after_results_simp
  rfl
theorem h0_v1 : after (hostOps0 (F := F)) W (Proc.devRef .tc main_v1)
    = srcOf (W (Proc.devRef .tc main_arg1)) := by
  after_results_simp
  rfl
theorem h0_v3 : after (hostOps0 (F := F)) W (Proc.devRef .tc main_v3)
    = dstOf (W (Proc.devRef .tc main_arg1)) := by
  after_results_simp
  rfl
theorem h0_arg5 : after (hostOps0 (F := F)) W (Proc.devRef .tc main_arg5) = W (Proc.devRef .tc main_arg5) := by after_results_simp
theorem h0_arg6 : after (hostOps0 (F := F)) W (Proc.devRef .tc main_arg6) = W (Proc.devRef .tc main_arg6) := by after_results_simp
theorem h0_arg7 : after (hostOps0 (F := F)) W (Proc.devRef .tc main_arg7) = W (Proc.devRef .tc main_arg7) := by after_results_simp
theorem h0_arg8 : after (hostOps0 (F := F)) W (Proc.devRef .tc main_arg8) = W (Proc.devRef .tc main_arg8) := by after_results_simp
theorem h0_arg9 : after (hostOps0 (F := F)) W (Proc.devRef .tc main_arg9) = W (Proc.devRef .tc main_arg9) := by after_results_simp
theorem h0_arg10 : after (hostOps0 (F := F)) W (Proc.devRef .tc main_arg10) = W (Proc.devRef .tc main_arg10) := by after_results_simp
theorem h1_v45 : after (hostOps1 (F := F)) W (Proc.devRef .tc main_v45)
    = meanAgg (W (Proc.devRef .tc main_v26)) (W (Proc.devRef .tc main_v1)) (W (Proc.devRef .tc main_v3)) := by
  after_results_simp
  rfl
theorem h1_v26 : after (hostOps1 (F := F)) W (Proc.devRef .tc main_v26) = W (Proc.devRef .tc main_v26) := by after_results_simp
theorem h1_v46 : after (hostOps1 (F := F)) W (Proc.devRef .tc main_v46)
    = transpose S128x128 [1, 0] (W (Proc.devRef .tc main_arg5)) transposes_S128x128_S128x128_1_0 := by
  after_results_simp
theorem h1_v47 : after (hostOps1 (F := F)) W (Proc.devRef .tc main_v47)
    = transpose S128x128 [1, 0] (W (Proc.devRef .tc main_arg7)) transposes_S128x128_S128x128_1_0 := by
  after_results_simp
theorem h1_v48 : after (hostOps1 (F := F)) W (Proc.devRef .tc main_v48)
    = shapeCast S1x128 (W (Proc.devRef .tc main_arg6)) shapeCasts_S128_S1x128 := by
  after_results_simp
  rfl
theorem h1_v1 : after (hostOps1 (F := F)) W (Proc.devRef .tc main_v1) = W (Proc.devRef .tc main_v1) := by after_results_simp
theorem h1_v3 : after (hostOps1 (F := F)) W (Proc.devRef .tc main_v3) = W (Proc.devRef .tc main_v3) := by after_results_simp
theorem h1_arg8 : after (hostOps1 (F := F)) W (Proc.devRef .tc main_arg8) = W (Proc.devRef .tc main_arg8) := by after_results_simp
theorem h1_arg9 : after (hostOps1 (F := F)) W (Proc.devRef .tc main_arg9) = W (Proc.devRef .tc main_arg9) := by after_results_simp
theorem h1_arg10 : after (hostOps1 (F := F)) W (Proc.devRef .tc main_arg10) = W (Proc.devRef .tc main_arg10) := by after_results_simp
theorem h2_v68 : after (hostOps2 (F := F)) W (Proc.devRef .tc main_v68)
    = meanAgg (W (Proc.devRef .tc main_v49)) (W (Proc.devRef .tc main_v1)) (W (Proc.devRef .tc main_v3)) := by
  after_results_simp
  rfl
theorem h2_v49 : after (hostOps2 (F := F)) W (Proc.devRef .tc main_v49) = W (Proc.devRef .tc main_v49) := by after_results_simp
theorem h2_v69 : after (hostOps2 (F := F)) W (Proc.devRef .tc main_v69)
    = transpose S128x16 [1, 0] (W (Proc.devRef .tc main_arg8)) transposes_S16x128_S128x16_1_0 := by
  after_results_simp
theorem h2_v70 : after (hostOps2 (F := F)) W (Proc.devRef .tc main_v70)
    = transpose S128x16 [1, 0] (W (Proc.devRef .tc main_arg10)) transposes_S16x128_S128x16_1_0 := by
  after_results_simp
theorem h2_v71 : after (hostOps2 (F := F)) W (Proc.devRef .tc main_v71)
    = shapeCast S1x16 (W (Proc.devRef .tc main_arg9)) shapeCasts_S16_S1x16 := by
  after_results_simp
  rfl

end Stretches

/-! ## The boundaries, from the launch memory -/

variable (m : (ℓ : Loc nD τ sig) → Buf (Elt Ideal) ℓ) (ρ : Dev nD → PrngReg) (c : Dev nD)

/-- The first hidden layer. -/
def h1 : S100000x128.Idx → EReal :=
  hidden (meanAgg (m ((c : Thread nD τ).loc main_arg0)) (srcOf (m ((c : Thread nD τ).loc main_arg1))) (dstOf (m ((c : Thread nD τ).loc main_arg1)))) (m ((c : Thread nD τ).loc main_arg0)) (transpose S128x128 [1, 0] (m ((c : Thread nD τ).loc main_arg2)) transposes_S128x128_S128x128_1_0) (transpose S128x128 [1, 0] (m ((c : Thread nD τ).loc main_arg4)) transposes_S128x128_S128x128_1_0)
    (shapeCast S1x128 (m ((c : Thread nD τ).loc main_arg3)) shapeCasts_S128_S1x128)
/-- The second hidden layer. -/
def h2 : S100000x128.Idx → EReal :=
  hidden (meanAgg (h1 m c) (srcOf (m ((c : Thread nD τ).loc main_arg1))) (dstOf (m ((c : Thread nD τ).loc main_arg1)))) (h1 m c) (transpose S128x128 [1, 0] (m ((c : Thread nD τ).loc main_arg5)) transposes_S128x128_S128x128_1_0) (transpose S128x128 [1, 0] (m ((c : Thread nD τ).loc main_arg7)) transposes_S128x128_S128x128_1_0)
    (shapeCast S1x128 (m ((c : Thread nD τ).loc main_arg6)) shapeCasts_S128_S1x128)
/-- The output layer. -/
def out3 : S100000x16.Idx → EReal :=
  outLayer (meanAgg (h2 m c) (srcOf (m ((c : Thread nD τ).loc main_arg1))) (dstOf (m ((c : Thread nD τ).loc main_arg1)))) (h2 m c) (transpose S128x16 [1, 0] (m ((c : Thread nD τ).loc main_arg8)) transposes_S16x128_S128x16_1_0) (transpose S128x16 [1, 0] (m ((c : Thread nD τ).loc main_arg10)) transposes_S16x128_S128x16_1_0)
    (shapeCast S1x16 (m ((c : Thread nD τ).loc main_arg9)) shapeCasts_S16_S1x16)

/-- After region 0 its output array holds the first hidden layer. -/
theorem w2_v26 : W2 m ρ c (Proc.devRef .tc main_v26) = h1 m c := by
  refine (W2_arr m ρ c 5).trans ((final0 (V1 m ρ) c).trans ?_)
  show hidden (after hostOps0 (W0 m ρ c) (Proc.devRef .tc main_v22)) (after hostOps0 (W0 m ρ c) (Proc.devRef .tc main_arg0))
    (after hostOps0 (W0 m ρ c) (Proc.devRef .tc main_v23)) (after hostOps0 (W0 m ρ c) (Proc.devRef .tc main_v24)) (after hostOps0 (W0 m ρ c) (Proc.devRef .tc main_v25)) = _
  rw [h0_v22, h0_arg0, h0_v23, h0_v24, h0_v25]
  rfl
theorem w2_v1 : W2 m ρ c (Proc.devRef .tc main_v1) = (srcOf (m ((c : Thread nD τ).loc main_arg1))) :=
  (W2_of_ne m ρ c main_v1 (by decide)).trans (h0_v1 (W0 m ρ c))
theorem w2_v3 : W2 m ρ c (Proc.devRef .tc main_v3) = (dstOf (m ((c : Thread nD τ).loc main_arg1))) :=
  (W2_of_ne m ρ c main_v3 (by decide)).trans (h0_v3 (W0 m ρ c))
theorem w2_arg5 : W2 m ρ c (Proc.devRef .tc main_arg5) = m ((c : Thread nD τ).loc main_arg5) :=
  (W2_of_ne m ρ c main_arg5 (by decide)).trans (h0_arg5 (W0 m ρ c))
theorem w2_arg6 : W2 m ρ c (Proc.devRef .tc main_arg6) = m ((c : Thread nD τ).loc main_arg6) :=
  (W2_of_ne m ρ c main_arg6 (by decide)).trans (h0_arg6 (W0 m ρ c))
theorem w2_arg7 : W2 m ρ c (Proc.devRef .tc main_arg7) = m ((c : Thread nD τ).loc main_arg7) :=
  (W2_of_ne m ρ c main_arg7 (by decide)).trans (h0_arg7 (W0 m ρ c))
theorem w2_arg8 : W2 m ρ c (Proc.devRef .tc main_arg8) = m ((c : Thread nD τ).loc main_arg8) :=
  (W2_of_ne m ρ c main_arg8 (by decide)).trans (h0_arg8 (W0 m ρ c))
theorem w2_arg9 : W2 m ρ c (Proc.devRef .tc main_arg9) = m ((c : Thread nD τ).loc main_arg9) :=
  (W2_of_ne m ρ c main_arg9 (by decide)).trans (h0_arg9 (W0 m ρ c))
theorem w2_arg10 : W2 m ρ c (Proc.devRef .tc main_arg10) = m ((c : Thread nD τ).loc main_arg10) :=
  (W2_of_ne m ρ c main_arg10 (by decide)).trans (h0_arg10 (W0 m ρ c))

/-- After region 1 its output array holds the second hidden layer. -/
theorem w4_v49 : W4 m ρ c (Proc.devRef .tc main_v49) = h2 m c := by
  refine (W4_arr m ρ c 5).trans ((final1 (V3 m ρ) c).trans ?_)
  show hidden (after hostOps1 (W2 m ρ c) (Proc.devRef .tc main_v45)) (after hostOps1 (W2 m ρ c) (Proc.devRef .tc main_v26))
    (after hostOps1 (W2 m ρ c) (Proc.devRef .tc main_v46)) (after hostOps1 (W2 m ρ c) (Proc.devRef .tc main_v47)) (after hostOps1 (W2 m ρ c) (Proc.devRef .tc main_v48)) = _
  rw [h1_v45, h1_v26, h1_v46, h1_v47, h1_v48, w2_v26, w2_v1, w2_v3, w2_arg5, w2_arg7, w2_arg6]
  rfl
theorem w4_v1 : W4 m ρ c (Proc.devRef .tc main_v1) = (srcOf (m ((c : Thread nD τ).loc main_arg1))) :=
  (W4_of_ne m ρ c main_v1 (by decide)).trans ((h1_v1 (W2 m ρ c)).trans (w2_v1 m ρ c))
theorem w4_v3 : W4 m ρ c (Proc.devRef .tc main_v3) = (dstOf (m ((c : Thread nD τ).loc main_arg1))) :=
  (W4_of_ne m ρ c main_v3 (by decide)).trans ((h1_v3 (W2 m ρ c)).trans (w2_v3 m ρ c))
theorem w4_arg8 : W4 m ρ c (Proc.devRef .tc main_arg8) = m ((c : Thread nD τ).loc main_arg8) :=
  (W4_of_ne m ρ c main_arg8 (by decide)).trans ((h1_arg8 (W2 m ρ c)).trans (w2_arg8 m ρ c))
theorem w4_arg9 : W4 m ρ c (Proc.devRef .tc main_arg9) = m ((c : Thread nD τ).loc main_arg9) :=
  (W4_of_ne m ρ c main_arg9 (by decide)).trans ((h1_arg9 (W2 m ρ c)).trans (w2_arg9 m ρ c))
theorem w4_arg10 : W4 m ρ c (Proc.devRef .tc main_arg10) = m ((c : Thread nD τ).loc main_arg10) :=
  (W4_of_ne m ρ c main_arg10 (by decide)).trans ((h1_arg10 (W2 m ρ c)).trans (w2_arg10 m ρ c))

/-- After region 2 the result array holds the output layer. -/
theorem w6_v72 : W6 m ρ c (Proc.devRef .tc main_v72) = out3 m c := by
  refine (W6_arr m ρ c 5).trans ((final2 (V5 m ρ) c).trans ?_)
  show outLayer (after hostOps2 (W4 m ρ c) (Proc.devRef .tc main_v68)) (after hostOps2 (W4 m ρ c) (Proc.devRef .tc main_v49))
    (after hostOps2 (W4 m ρ c) (Proc.devRef .tc main_v69)) (after hostOps2 (W4 m ρ c) (Proc.devRef .tc main_v70)) (after hostOps2 (W4 m ρ c) (Proc.devRef .tc main_v71)) = _
  rw [h2_v68, h2_v49, h2_v69, h2_v70, h2_v71, w4_v49, w4_v1, w4_v3, w4_arg8, w4_arg10, w4_arg9]
  rfl

end Cert.KernelIdeal.Hand

end
-- ==== Proof.RefStages.lean ====
/-
  The reference program's run, layer by layer.  @main is a straight line of 124 host operations; cut after the first and
  the second hidden layer and before the final log-softmax it is four stretches, and the buffer contents after a stretch are a function of the contents
  before it: the first stretch leaves the first hidden layer (and the two rows of the edge list), the second the second
  hidden layer, the third the last layer's pre-activation, the fourth its log-softmax; each passes the arguments it does not use yet.  Composed from the launch
  memory this is the result's value as three nested layers of the arguments.
-/
import proofs.«117211_j47648367182185_1_alg».proof.Proof.RefRun
import proofs.«117211_j47648367182185_1_alg».proof.Proof.RefLayers

set_option maxRecDepth 16384

noncomputable section

namespace Cert.ReferenceIdeal.Hand

open Cert.ReferenceIdeal Cert.ReferenceIdeal.Gen Cert.ReferenceIdeal.ValueP Idealize.ShloMosaic Idealize.ShloMosaic.TcCoe Idealize.SL.Sem
open Idealize.ShloMosaic.StableHlo

variable {F : FTy → Type} [FloatOps F]

/-- The contents after a line of operations followed by another: the second line's fold over the first's. -/
theorem after_append (l1 l2 : List (HloOp τ sig (Elt F))) (V : Valuation τ sig (Elt F)) :
    after (l1 ++ l2) V = after l2 (after l1 V) := by
  induction l1 generalizing V with
  | nil => rfl
  | cons op l ih => exact ih _

/-- The four stretches: up to the first hidden layer, up to the second, up to the last layer's pre-activation, the log-softmax. -/
def ops1 : List (HloOp τ sig (Elt F)) := List.take 40 ops
def ops2 : List (HloOp τ sig (Elt F)) := List.take 36 (List.drop 40 ops)
def ops3 : List (HloOp τ sig (Elt F)) := List.take 33 (List.drop 36 (List.drop 40 ops))
def ops4 : List (HloOp τ sig (Elt F)) := List.drop 33 (List.drop 36 (List.drop 40 ops))

theorem ops_split : (ops : List (HloOp τ sig (Elt F))) = ops1 ++ (ops2 ++ (ops3 ++ ops4)) := by
  unfold ops1 ops2 ops3 ops4
  rw [List.take_append_drop, List.take_append_drop, List.take_append_drop]

section Stretches

variable (W : Valuation τ sig (Elt F))

/-! ## The first stretch -/

theorem s1_v31 : after (ops1 (F := F)) W (Proc.devRef .tc main_v31)
    = refHidden (meanAgg (W (Proc.devRef .tc main_arg0)) (srcOf (W (Proc.devRef .tc main_arg1))) (dstOf (W (Proc.devRef .tc main_arg1))))
        (W (Proc.devRef .tc main_arg0)) (W (Proc.devRef .tc main_arg2)) (W (Proc.devRef .tc main_arg3)) (W (Proc.devRef .tc main_arg4)) := by
  unfold ops1
  simp only [ops, List.take_succ_cons, List.take_zero, List.drop_succ_cons, List.drop_zero]
  after_results_simp
  rfl
theorem s1_v1 : after (ops1 (F := F)) W (Proc.devRef .tc main_v1)
    = srcOf (W (Proc.devRef .tc main_arg1)) := by
  unfold ops1
  simp only [ops, List.take_succ_cons, List.take_zero, List.drop_succ_cons, List.drop_zero]
  after_results_simp
  rfl
theorem s1_v3 : after (ops1 (F := F)) W (Proc.devRef .tc main_v3)
    = dstOf (W (Proc.devRef .tc main_arg1)) := by
  unfold ops1
  simp only [ops, List.take_succ_cons, List.take_zero, List.drop_succ_cons, List.drop_zero]
  after_results_simp
  rfl
theorem s1_arg5 : after (ops1 (F := F)) W (Proc.devRef .tc main_arg5) = W (Proc.devRef .tc main_arg5) := by
  unfold ops1
  simp only [ops, List.take_succ_cons, List.take_zero, List.drop_succ_cons, List.drop_zero]
  after_results_simp
theorem s1_arg6 : after (ops1 (F := F)) W (Proc.devRef .tc main_arg6) = W (Proc.devRef .tc main_arg6) := by
  unfold ops1
  simp only [ops, List.take_succ_cons, List.take_zero, List.drop_succ_cons, List.drop_zero]
  after_results_simp
theorem s1_arg7 : after (ops1 (F := F)) W (Proc.devRef .tc main_arg7) = W (Proc.devRef .tc main_arg7) := by
  unfold ops1
  simp only [ops, List.take_succ_cons, List.take_zero, List.drop_succ_cons, List.drop_zero]
  after_results_simp
theorem s1_arg8 : after (ops1 (F := F)) W (Proc.devRef .tc main_arg8) = W (Proc.devRef .tc main_arg8) := by
  unfold ops1
  simp only [ops, List.take_succ_cons, List.take_zero, List.drop_succ_cons, List.drop_zero]
  after_results_simp
theorem s1_arg9 : after (ops1 (F := F)) W (Proc.devRef .tc main_arg9) = W (Proc.devRef .tc main_arg9) := by
  unfold ops1
  simp only [ops, List.take_succ_cons, List.take_zero, List.drop_succ_cons, List.drop_zero]
  after_results_simp
theorem s1_arg10 : after (ops1 (F := F)) W (Proc.devRef .tc main_arg10) = W (Proc.devRef .tc main_arg10) := by
  unfold ops1
  simp only [ops, List.take_succ_cons, List.take_zero, List.drop_succ_cons, List.drop_zero]
  after_results_simp

/-! ## The second stretch -/

theorem s2_v59 : after (ops2 (F := F)) W (Proc.devRef .tc main_v59)
    = refHidden (meanAgg (W (Proc.devRef .tc main_v31)) (W (Proc.devRef .tc main_v1)) (W (Proc.devRef .tc main_v3)))
        (W (Proc.devRef .tc main_v31)) (W (Proc.devRef .tc main_arg5)) (W (Proc.devRef .tc main_arg6)) (W (Proc.devRef .tc main_arg7)) := by
  unfold ops2
  simp only [ops, List.take_succ_cons, List.take_zero, List.drop_succ_cons, List.drop_zero]
  after_results_simp
  rfl
theorem s2_v1 : after (ops2 (F := F)) W (Proc.devRef .tc main_v1) = W (Proc.devRef .tc main_v1) := by
  unfold ops2
  simp only [ops, List.take_succ_cons, List.take_zero, List.drop_succ_cons, List.drop_zero]
  after_results_simp
theorem s2_v3 : after (ops2 (F := F)) W (Proc.devRef .tc main_v3) = W (Proc.devRef .tc main_v3) := by
  unfold ops2
  simp only [ops, List.take_succ_cons, List.take_zero, List.drop_succ_cons, List.drop_zero]
  after_results_simp
theorem s2_arg8 : after (ops2 (F := F)) W (Proc.devRef .tc main_arg8) = W (Proc.devRef .tc main_arg8) := by
  unfold ops2
  simp only [ops, List.take_succ_cons, List.take_zero, List.drop_succ_cons, List.drop_zero]
  after_results_simp
theorem s2_arg9 : after (ops2 (F := F)) W (Proc.devRef .tc main_arg9) = W (Proc.devRef .tc main_arg9) := by
  unfold ops2
  simp only [ops, List.take_succ_cons, List.take_zero, List.drop_succ_cons, List.drop_zero]
  after_results_simp
theorem s2_arg10 : after (ops2 (F := F)) W (Proc.devRef .tc main_arg10) = W (Proc.devRef .tc main_arg10) := by
  unfold ops2
  simp only [ops, List.take_succ_cons, List.take_zero, List.drop_succ_cons, List.drop_zero]
  after_results_simp

/-! ## The third stretch -/

theorem s3_v86 : after (ops3 (F := F)) W (Proc.devRef .tc main_v86)
    = refLin (meanAgg (W (Proc.devRef .tc main_v59)) (W (Proc.devRef .tc main_v1)) (W (Proc.devRef .tc main_v3)))
        (W (Proc.devRef .tc main_v59)) (W (Proc.devRef .tc main_arg8)) (W (Proc.devRef .tc main_arg9)) (W (Proc.devRef .tc main_arg10)) := by
  unfold ops3
  simp only [ops, List.take_succ_cons, List.take_zero, List.drop_succ_cons, List.drop_zero]
  after_results_simp
  rfl

/-! ## The fourth stretch: the log-softmax over the sixteen lanes -/

/-- Contents written at a typed reference and read back there are the contents. -/
theorem ofBuf_toBuf {T : BufTy} (x : TRef sig T) (v : T.Contents (Elt F)) : x.ofBuf (x.toBuf v) = v := by
  unfold TRef.ofBuf TRef.toBuf
  simp

/-- At the result's reference the typed contents are the buffer's contents. -/
theorem toBuf_v87 (h1 : main_v87.ty = ⟨S100000x16, .f32⟩) (h2 h3) (v : (⟨S100000x16, .f32⟩ : BufTy).Contents (Elt F)) :
    (TRef.of main_v87 h1 h2 h3).toBuf v = v := rfl
/-- At the pre-activation's reference the buffer's contents are the typed contents. -/
theorem ofBuf_v86 (h1 : main_v86.ty = ⟨S100000x16, .f32⟩) (h2 h3) (u : (⟨S100000x16, .f32⟩ : BufTy).Contents (Elt F)) :
    (TRef.of main_v86 h1 h2 h3).ofBuf u = u := rfl

theorem s4_v87 : after (ops4 (F := F)) W (Proc.devRef .tc main_v87) = refLogSoftmax (W (Proc.devRef .tc main_v86)) := by
  unfold ops4
  simp only [ops, List.take_succ_cons, List.take_zero, List.drop_succ_cons, List.drop_zero]
  after_results_simp
  unfold refLogSoftmax refShift refRowMax
  simp only [ofBuf_toBuf, toBuf_v87, ofBuf_v86]

end Stretches

/-! ## The result from the launch memory -/

variable (m : (ℓ : Loc nD τ sig) → Buf (Elt F) ℓ) (c : Dev nD)

/-- The first hidden layer of the reference. -/
def r1 : (⟨S100000x128, .f32⟩ : BufTy).Contents (Elt F) :=
  refHidden (meanAgg (m ((c.tc : Thread nD τ).loc main_arg0)) (srcOf (m ((c.tc : Thread nD τ).loc main_arg1))) (dstOf (m ((c.tc : Thread nD τ).loc main_arg1)))) (m ((c.tc : Thread nD τ).loc main_arg0)) (m ((c.tc : Thread nD τ).loc main_arg2)) (m ((c.tc : Thread nD τ).loc main_arg3)) (m ((c.tc : Thread nD τ).loc main_arg4))
/-- The second hidden layer of the reference. -/
def r2 : (⟨S100000x128, .f32⟩ : BufTy).Contents (Elt F) :=
  refHidden (meanAgg (r1 m c) (srcOf (m ((c.tc : Thread nD τ).loc main_arg1))) (dstOf (m ((c.tc : Thread nD τ).loc main_arg1)))) (r1 m c) (m ((c.tc : Thread nD τ).loc main_arg5)) (m ((c.tc : Thread nD τ).loc main_arg6)) (m ((c.tc : Thread nD τ).loc main_arg7))
/-- The reference's result. -/
def r3 : (⟨S100000x16, .f32⟩ : BufTy).Contents (Elt F) :=
  refLogSoftmax (refLin (meanAgg (r2 m c) (srcOf (m ((c.tc : Thread nD τ).loc main_arg1))) (dstOf (m ((c.tc : Thread nD τ).loc main_arg1)))) (r2 m c) (m ((c.tc : Thread nD τ).loc main_arg8)) (m ((c.tc : Thread nD τ).loc main_arg9)) (m ((c.tc : Thread nD τ).loc main_arg10)))

/-- The result buffer after the whole line, from the launch memory. -/
theorem after_ops_result : after (ops (F := F)) (launchContents m c) (Proc.devRef .tc main_v87) = r3 m c := by
  rw [ops_split, after_append, after_append, after_append, s4_v87, s3_v86, s2_v59, s2_v1, s2_v3, s2_arg8, s2_arg9, s2_arg10,
    s1_v31, s1_v1, s1_v3, s1_arg5, s1_arg6, s1_arg7, s1_arg8, s1_arg9, s1_arg10]
  rfl

/-! ## The run -/

set_option maxHeartbeats 4000000 in
/-- Every weakly fair execution of the reference's @main terminates with the result buffer at the three nested layers of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = r3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v87).trans (after_ops_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.Hand

end
-- ==== Proof.RDots.lean ====
/-
  The reference's two matrix products read at an index: on the extended reals the host's dot_general of an [100000, 128]
  array of rows with a [128, 128] or [128, 16] matrix reads, at (p, q), the plain sum over k of left (p, k) times right (k, q).
-/
import proofs.«117211_j47648367182185_1_alg».proof.Proof.Gen.ReferenceIdeal
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

/-- The left operand's index at output index `i` and contraction index `q`: row `i 0`, column `q`. -/
theorem lhs0_dot_S100000x128_S128x128_S100000x128_1_0_0_1_n_n (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs1_dot_S100000x128_S128x128_S100000x128_1_0_0_1_n_n (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
/-- The right operand's index: row `q`, column `i 1`. -/
theorem rhs0_dot_S100000x128_S128x128_S100000x128_1_0_0_1_n_n (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs1_dot_S100000x128_S128x128_S100000x128_1_0_0_1_n_n (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- On the extended reals the product of an [100000, 128] and a [128, 128] matrix reads, at (p, q), the sum over k of the
    left factor at (p, k) times the right factor at (k, q). -/
theorem dot_dot_S100000x128_S128x128_S100000x128_1_0_0_1_n_n_apply {φ₁ φ₂ : FTy} (l : FVec Ideal S100000x128 φ₁) (r : FVec Ideal S128x128 φ₂) (p : Fin 100000) (q : Fin 128) :
    Host.dotGeneral dot_S100000x128_S128x128_S100000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact lhs0_dot_S100000x128_S128x128_S100000x128_1_0_0_1_n_n _ _
    | ⟨1, _⟩ => exact (lhs1_dot_S100000x128_S128x128_S100000x128_1_0_0_1_n_n _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (rhs0_dot_S100000x128_S128x128_S100000x128_1_0_0_1_n_n _ _).trans hk
    | ⟨1, _⟩ => exact rhs1_dot_S100000x128_S128x128_S100000x128_1_0_0_1_n_n _ _)
  rw [el, er]

/-- The left operand's index at output index `i` and contraction index `q`: row `i 0`, column `q`. -/
theorem lhs0_dot_S100000x128_S128x16_S100000x16_1_0_0_1_n_n (i : S100000x16.Idx) (q : dot_S100000x128_S128x16_S100000x16_1_0_0_1_n_n.contr.Idx) : (dot_S100000x128_S128x16_S100000x16_1_0_0_1_n_n.lhsIdx i q 0).val = (i 0).val := by
  unfold DotDims.lhsIdx
  rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
  rfl
theorem lhs1_dot_S100000x128_S128x16_S100000x16_1_0_0_1_n_n (i : S100000x16.Idx) (q : dot_S100000x128_S128x16_S100000x16_1_0_0_1_n_n.contr.Idx) : (dot_S100000x128_S128x16_S100000x16_1_0_0_1_n_n.lhsIdx i q 1).val = (q ⟨0, by decide⟩).val :=
  dot_S100000x128_S128x16_S100000x16_1_0_0_1_n_n.lhsIdx_val_of_single rfl i q
/-- The right operand's index: row `q`, column `i 1`. -/
theorem rhs0_dot_S100000x128_S128x16_S100000x16_1_0_0_1_n_n (i : S100000x16.Idx) (q : dot_S100000x128_S128x16_S100000x16_1_0_0_1_n_n.contr.Idx) : (dot_S100000x128_S128x16_S100000x16_1_0_0_1_n_n.rhsIdx i q 0).val = (q ⟨0, by decide⟩).val :=
  dot_S100000x128_S128x16_S100000x16_1_0_0_1_n_n.rhsIdx_val_of_single rfl i q
theorem rhs1_dot_S100000x128_S128x16_S100000x16_1_0_0_1_n_n (i : S100000x16.Idx) (q : dot_S100000x128_S128x16_S100000x16_1_0_0_1_n_n.contr.Idx) : (dot_S100000x128_S128x16_S100000x16_1_0_0_1_n_n.rhsIdx i q 1).val = (i 1).val := by
  unfold DotDims.rhsIdx
  rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
  rfl

/-- On the extended reals the product of an [100000, 128] and a [128, 16] matrix reads, at (p, q), the sum over k of the
    left factor at (p, k) times the right factor at (k, q). -/
theorem dot_dot_S100000x128_S128x16_S100000x16_1_0_0_1_n_n_apply {φ₁ φ₂ : FTy} (l : FVec Ideal S100000x128 φ₁) (r : FVec Ideal S128x16 φ₂) (p : Fin 100000) (q : Fin 16) :
    Host.dotGeneral dot_S100000x128_S128x16_S100000x16_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S100000x128_S128x16_S100000x16_1_0_0_1_n_n 128 rfl rfl).symm]
  refine Finset.sum_congr rfl fun k _ => ?_
  have hk := ValueIdx.contrEquiv1_symm_val dot_S100000x128_S128x16_S100000x16_1_0_0_1_n_n 128 rfl rfl k
  have el : dot_S100000x128_S128x16_S100000x16_1_0_0_1_n_n.lhsIdx (ix2 p q) ((ValueIdx.contrEquiv1 dot_S100000x128_S128x16_S100000x16_1_0_0_1_n_n 128 rfl rfl).symm k) = ix2 p k := funext fun a => Fin.ext (by
    match a with
    | ⟨0, _⟩ => exact lhs0_dot_S100000x128_S128x16_S100000x16_1_0_0_1_n_n _ _
    | ⟨1, _⟩ => exact (lhs1_dot_S100000x128_S128x16_S100000x16_1_0_0_1_n_n _ _).trans hk)
  have er : dot_S100000x128_S128x16_S100000x16_1_0_0_1_n_n.rhsIdx (ix2 p q) ((ValueIdx.contrEquiv1 dot_S100000x128_S128x16_S100000x16_1_0_0_1_n_n 128 rfl rfl).symm k) = ix2 k q := funext fun a => Fin.ext (by
    match a with
    | ⟨0, _⟩ => exact (rhs0_dot_S100000x128_S128x16_S100000x16_1_0_0_1_n_n _ _).trans hk
    | ⟨1, _⟩ => exact rhs1_dot_S100000x128_S128x16_S100000x16_1_0_0_1_n_n _ _)
  rw [el, er]

end Cert.ReferenceIdeal.Hand

end
-- ==== Proof.RefIdx.lean ====
/-
  The reference's layout operations and reductions read at an index, on the extended reals: a bias vector spread over the
  rows, a per-row value kept as a column and spread over the lanes, a splat, the row maximum (from −∞, twice) and the row sum.
-/
import proofs.«117211_j47648367182185_1_alg».proof.Proof.RefLayers
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

variable {α : Type}

/-- A [128] vector spread over 100000 rows reads, at (r, q), its entry q. -/
theorem bias128_apply (b : S128.Idx → α) (r : Fin 100000) (q : Fin 128) :
    broadcastInDim S100000x128 ![0, 1] bcast_S1x128_S100000x128_0_1 (broadcastInDim S1x128 ![1] bcast_S128_S1x128_1 b) (ix2 r q) = b (ix1 q) := by
  refine (broadcastInDim_apply _ bcast_S1x128_S100000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- A [16] vector spread over 100000 rows reads, at (r, q), its entry q. -/
theorem bias16_apply (b : S16.Idx → α) (r : Fin 100000) (q : Fin 16) :
    broadcastInDim S100000x16 ![0, 1] bcast_S1x16_S100000x16_0_1 (broadcastInDim S1x16 ![1] bcast_S16_S1x16_1 b) (ix2 r q) = b (ix1 q) := by
  refine (broadcastInDim_apply _ bcast_S1x16_S100000x16_0_1 _ (ix2 r q) (ix2 (0 : Fin 1) q) (fun a => match a with
    | ⟨0, _⟩ => by show 0 = if (1 : Nat) = 1 then 0 else r.val; rw [if_pos rfl]
    | ⟨1, _⟩ => by show q.val = if (16 : Nat) = 1 then 0 else q.val; rw [if_neg (by decide)])).trans ?_
  exact broadcastInDim_apply _ bcast_S16_S1x16_1 b (ix2 (0 : Fin 1) q) (ix1 q) (fun a => match a with
    | ⟨0, _⟩ => by show q.val = if (16 : Nat) = 1 then 0 else q.val; rw [if_neg (by decide)])

/-- A per-row value kept as a column and spread over the sixteen lanes reads, at (r, q), the row's value. -/
theorem col16_apply (v : S100000.Idx → α) (r : Fin 100000) (q : Fin 16) :
    broadcastInDim S100000x16 ![0, 1] bcast_S100000x1_S100000x16_0_1 (broadcastInDim S100000x1 ![0] bcast_S100000_S100000x1_0 v) (ix2 r q) = v (ix1 r) := by
  refine (broadcastInDim_apply _ bcast_S100000x1_S100000x16_0_1 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans ?_
  exact broadcastInDim_apply _ bcast_S100000_S100000x1_0 v (ix2 r (0 : Fin 1)) (ix1 r) (fun a => match a with
    | ⟨0, _⟩ => by show r.val = if (100000 : Nat) = 1 then 0 else r.val; rw [if_neg (by decide)])

/-- The zero splat over [100000, 128] reads the word's value everywhere. -/
theorem splat128_apply (w : BitVec 32) (i : S100000x128.Idx) :
    broadcastInDim S100000x128 ![] bcast_S_S100000x128 (constant (F := Ideal) S_ .f32 w) i = Ideal.ofBits .f32 w :=
  broadcastInDim_apply _ bcast_S_S100000x128 (constant (F := Ideal) S_ .f32 w) i ix0 (fun a => a.elim0)

/-- The reduced index r with lane k put back is (r, k). -/
theorem lift_lane (h : S100000x16.Reduces [1] S100000) (r : Fin 100000) (k : Fin (S100000x16.size 1)) :
    h.lift (ix1 r) k = ix2 r (⟨k.val, k.isLt⟩ : Fin 16) := by
  funext c; apply Fin.ext
  fin_cases c <;> rfl

/-- The maximum with −∞ is the other operand. -/
theorem max_neg_inf (y : EReal) : max (Ideal.ofBits .f32 0xFF800000#32) y = y := by
  simp [Ideal.ofBits, Ideal.ieee]

/-- The host's reduce with a maximum body from −∞ over the sixteen lanes, at row r: the fold of max over them. -/
theorem hostMax_apply (z : FVec Ideal S100000x16 .f32) (r : Fin 100000) :
    Host.reduce FloatOps.maximumf z (constant (F := Ideal) S_ .f32 0xFF800000#32) reducesTo_S100000x16_S100000_d1 h_S_ (ix1 r)
      = (Finset.univ : Finset (Fin 16)).fold max (Ideal.ofBits .f32 0xFF800000#32) fun k => z (ix2 r k) := by
  have h : S100000x16.Reduces [1] S100000 := by decide
  refine (Host.reduce_eq_fold_single FloatOps.maximumf z _ reducesTo_S100000x16_S100000_d1 h h_S_ (ix1 r)).trans ?_
  have hf : (z ∘ h.lift (ix1 r)) = fun k : Fin 16 => z (ix2 r k) := funext fun k => congrArg z (lift_lane h r k)
  exact congrArg (fun f => Finset.fold max (Ideal.ofBits .f32 0xFF800000#32) f (Finset.univ : Finset (Fin 16))) hf

/-- The reference's row maximum at row r: the fold of max from −∞ over the sixteen lanes (the second maximum with −∞ changes nothing). -/
theorem refRowMax_apply (z : FVec Ideal S100000x16 .f32) (r : Fin 100000) :
    refRowMax (F := Ideal) z (ix1 r) = (Finset.univ : Finset (Fin 16)).fold max (Ideal.ofBits .f32 0xFF800000#32) fun k => z (ix2 r k) := by
  have hb : broadcastInDim S100000 ![] bcast_S_S100000 (constant (F := Ideal) S_ .f32 0xFF800000#32) (ix1 r) = Ideal.ofBits .f32 0xFF800000#32 :=
    broadcastInDim_apply _ bcast_S_S100000 (constant (F := Ideal) S_ .f32 0xFF800000#32) (ix1 r) ix0 (fun a => a.elim0)
  unfold refRowMax
  rw [maximumf_apply, hostMax_apply, hb, max_neg_inf]

/-- The reference's row sum at row r, from the zero word: the sum over the sixteen lanes. -/
theorem rowSum_apply (e : FVec Ideal S100000x16 .f32) (r : Fin 100000) :
    Host.reduceAdd e (constant (F := Ideal) S_ .f32 0x00000000#32) reducesTo_S100000x16_S100000_d1 h_S_ (ix1 r) = ∑ k : Fin 16, e (ix2 r k) := by
  simp only [Host.reduceAdd, Ideal.hostReduceAdd_def]
  have h : S100000x16.Reduces [1] S100000 := by decide
  rw [Ideal.hostReduceAdd_single reducesTo_S100000x16_S100000_d1 h]
  show Ideal.ofBits .f32 0x00000000#32 + _ = _
  rw [Ideal.ofBits_zero_f32, zero_add]
  exact Finset.sum_congr rfl fun k _ => congrArg e (lift_lane h r k)

/-- The host's exponential at an index is the extended reals' exponential of the element. -/
theorem hostExp_apply {s : Shape} {φ : FTy} (x : FVec Ideal s φ) (i : s.Idx) : Host.exp x i = Ideal.exp (x i) := rfl

/-- The logarithm of a per-row value kept as a column, spread over the sixteen lanes, reads at (r, q) the logarithm of the row's value. -/
theorem logcol_apply (v : FVec Ideal S100000 .f32) (r : Fin 100000) (q : Fin 16) :
    broadcastInDim S100000x16 ![0, 1] bcast_S100000x1_S100000x16_0_1 (Host.log (broadcastInDim S100000x1 ![0] bcast_S100000_S100000x1_0 v)) (ix2 r q)
      = Ideal.log (v (ix1 r)) := by
  refine (broadcastInDim_apply _ bcast_S100000x1_S100000x16_0_1 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans ?_
  show Ideal.log (broadcastInDim S100000x1 ![0] bcast_S100000_S100000x1_0 v (ix2 r (0 : Fin 1))) = _
  exact congrArg Ideal.log (broadcastInDim_apply _ bcast_S100000_S100000x1_0 v (ix2 r (0 : Fin 1)) (ix1 r) (fun a => match a with
    | ⟨0, _⟩ => by show r.val = if (100000 : Nat) = 1 then 0 else r.val; rw [if_neg (by decide)]))

end Cert.ReferenceIdeal.Hand

end
-- ==== Proof.LayerEq.lean ====
/-
  The two programs' layers are one function on the extended reals.  A hidden layer of the kernel is
  max ((∑ₖ a·Wlᵀ + ∑ₖ x·Wrᵀ) + b, 0), the reference's is max ((∑ₖ a·Wlᵀ + b) + ∑ₖ x·Wrᵀ, 0): the same by commuting the last two
  summands, which holds on the extended reals without any finiteness.  The last layer's sixteen pre-activations agree the same
  way, and the log-softmax over them is the same expression on both sides once the reference's second maximum with −∞ and its
  sum's zero start are dropped.
-/
import proofs.«117211_j47648367182185_1_alg».proof.Proof.Blocks0
import proofs.«117211_j47648367182185_1_alg».proof.Proof.Blocks2
import proofs.«117211_j47648367182185_1_alg».proof.Proof.RDots
import proofs.«117211_j47648367182185_1_alg».proof.Proof.RefIdx
import Idealize.ShloMosaic.Lib.ValueLayout

set_option maxRecDepth 16384

noncomputable section

namespace Cert.Proof.Layers

open Idealize.ShloMosaic Idealize.ShloMosaic.ValueIdx
open Cert.ReferenceIdeal.Hand

/-- A hidden layer: the kernel's function of the aggregated features, the input, the transposed weights and the bias row is
    the reference's relu ((mean · Wlᵀ + b) + x · Wrᵀ). -/
theorem hidden_eq (A X : FVec Ideal Cert.ReferenceIdeal.S100000x128 .f32) (wl wr : FVec Ideal Cert.ReferenceIdeal.S128x128 .f32)
    (b : FVec Ideal Cert.ReferenceIdeal.S128 .f32)
    (hT : Cert.KernelIdeal.S128x128.Transposes [1, 0] Cert.KernelIdeal.S128x128)
    (hC : Cert.KernelIdeal.S128.ShapeCasts Cert.KernelIdeal.S1x128) :
    Cert.KernelIdeal.Hand.hidden A X (transpose Cert.KernelIdeal.S128x128 [1, 0] wl hT) (transpose Cert.KernelIdeal.S128x128 [1, 0] wr hT)
        (shapeCast Cert.KernelIdeal.S1x128 b hC)
      = refHidden (F := Ideal) A X wl b wr := by
  funext i
  obtain ⟨r, q, rfl⟩ : ∃ (r : Fin 100000) (q : Fin 128), i = ix2 r q := ⟨i 0, i 1, eq_ix2 i⟩
  unfold Cert.KernelIdeal.Hand.hidden Cert.KernelIdeal.Hand.hiddenAt refHidden
  rw [maximumf_apply, addf_apply, addf_apply, dot_dot_S100000x128_S128x128_S100000x128_1_0_0_1_n_n_apply,
    dot_dot_S100000x128_S128x128_S100000x128_1_0_0_1_n_n_apply, bias128_apply, splat128_apply, shapeCast_a_1a_apply, add_right_comm]

/-- The last layer's pre-activation at (r, j): the kernel's and the reference's grouping of the three summands. -/
theorem lin_eq (A X : FVec Ideal Cert.ReferenceIdeal.S100000x128 .f32) (wl wr : FVec Ideal Cert.ReferenceIdeal.S16x128 .f32)
    (b : FVec Ideal Cert.ReferenceIdeal.S16 .f32)
    (hT : Cert.KernelIdeal.S16x128.Transposes [1, 0] Cert.KernelIdeal.S128x16)
    (hC : Cert.KernelIdeal.S16.ShapeCasts Cert.KernelIdeal.S1x16) (r : Fin 100000) (j : Fin 16) :
    Cert.KernelIdeal.Hand.linAt (fun k => A (ix2 r k)) (fun k => X (ix2 r k))
        (fun k => transpose Cert.KernelIdeal.S128x16 [1, 0] wl hT (ix2 k j)) (fun k => transpose Cert.KernelIdeal.S128x16 [1, 0] wr hT (ix2 k j))
        (shapeCast Cert.KernelIdeal.S1x16 b hC (ix2 (0 : Fin 1) j))
      = refLin (F := Ideal) A X wl b wr (ix2 r j) := by
  unfold Cert.KernelIdeal.Hand.linAt refLin
  rw [addf_apply, addf_apply, dot_dot_S100000x128_S128x16_S100000x16_1_0_0_1_n_n_apply,
    dot_dot_S100000x128_S128x16_S100000x16_1_0_0_1_n_n_apply, bias16_apply, shapeCast_a_1a_apply, add_right_comm]

/-- The reference's shifted values at (r, q): the entry less its row's maximum. -/
theorem refShift_apply (z : FVec Ideal Cert.ReferenceIdeal.S100000x16 .f32) (r : Fin 100000) (q : Fin 16) :
    refShift (F := Ideal) z (ix2 r q) = z (ix2 r q) - Cert.KernelIdeal.Hand.rowMax fun k => z (ix2 r k) := by
  unfold refShift Cert.KernelIdeal.Hand.rowMax
  rw [subf_apply, col16_apply, refRowMax_apply]

/-- The reference's log-softmax at (r, q) is the kernel's of the same row. -/
theorem refLogSoftmax_apply (z : FVec Ideal Cert.ReferenceIdeal.S100000x16 .f32) (r : Fin 100000) (q : Fin 16) :
    refLogSoftmax (F := Ideal) z (ix2 r q) = Cert.KernelIdeal.Hand.logSoftmaxAt (fun k => z (ix2 r k)) q := by
  unfold refLogSoftmax Cert.KernelIdeal.Hand.logSoftmaxAt
  rw [subf_apply, refShift_apply, logcol_apply, rowSum_apply]
  refine congrArg (fun s => (z (ix2 r q) - Cert.KernelIdeal.Hand.rowMax fun k => z (ix2 r k)) - Ideal.log s) ?_
  refine Finset.sum_congr rfl fun k _ => ?_
  rw [hostExp_apply, refShift_apply]

/-- The last layer: the kernel's function is the reference's log-softmax of (mean · Wlᵀ + b) + x · Wrᵀ. -/
theorem out_eq (A X : FVec Ideal Cert.ReferenceIdeal.S100000x128 .f32) (wl wr : FVec Ideal Cert.ReferenceIdeal.S16x128 .f32)
    (b : FVec Ideal Cert.ReferenceIdeal.S16 .f32)
    (hT : Cert.KernelIdeal.S16x128.Transposes [1, 0] Cert.KernelIdeal.S128x16)
    (hC : Cert.KernelIdeal.S16.ShapeCasts Cert.KernelIdeal.S1x16) :
    Cert.KernelIdeal.Hand.outLayer A X (transpose Cert.KernelIdeal.S128x16 [1, 0] wl hT) (transpose Cert.KernelIdeal.S128x16 [1, 0] wr hT)
        (shapeCast Cert.KernelIdeal.S1x16 b hC)
      = refLogSoftmax (F := Ideal) (refLin (F := Ideal) A X wl b wr) := by
  funext i
  obtain ⟨r, q, rfl⟩ : ∃ (r : Fin 100000) (q : Fin 16), i = ix2 r q := ⟨i 0, i 1, eq_ix2 i⟩
  rw [refLogSoftmax_apply]
  unfold Cert.KernelIdeal.Hand.outLayer
  exact congrArg (fun f => Cert.KernelIdeal.Hand.logSoftmaxAt f q) (funext fun j => lin_eq A X wl wr b hT hC r j)

end Cert.Proof.Layers

end
-- ==== Proof.Bridge.lean ====
/-
  The kernel's three nested layers are the reference's.  Layer by layer the kernel's whole-array function is the reference's
  (the commuted sum; the log-softmax), and the mean aggregation between the layers is one and the same operation on both sides,
  so equal inputs give equal outputs all the way down.
-/
import proofs.«117211_j47648367182185_1_alg».proof.Proof.KChain
import proofs.«117211_j47648367182185_1_alg».proof.Proof.RefStages
import proofs.«117211_j47648367182185_1_alg».proof.Proof.LayerEq

set_option maxRecDepth 16384

noncomputable section

namespace Cert.Proof.Layers

open Idealize.ShloMosaic Idealize.ShloMosaic.TcCoe Idealize.SL.Sem
open Cert.ReferenceIdeal.Hand

variable (m : (ℓ : Loc Cert.KernelIdeal.nD Cert.KernelIdeal.τ Cert.KernelIdeal.sig) → Buf (Elt Ideal) ℓ) (c : Dev Cert.KernelIdeal.nD)

/-- The kernel's first hidden layer is the reference's, of the same arguments. -/
theorem h1_eq : Cert.KernelIdeal.Hand.h1 m c
    = refHidden (F := Ideal) (meanAgg (m ((c : Thread Cert.KernelIdeal.nD Cert.KernelIdeal.τ).loc Cert.KernelIdeal.main_arg0)) (srcOf (m ((c : Thread Cert.KernelIdeal.nD Cert.KernelIdeal.τ).loc Cert.KernelIdeal.main_arg1))) (dstOf (m ((c : Thread Cert.KernelIdeal.nD Cert.KernelIdeal.τ).loc Cert.KernelIdeal.main_arg1)))) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) :=
  hidden_eq _ _ _ _ _ _ _

/-- The kernel's second hidden layer is the reference's, of the first. -/
theorem h2_eq : Cert.KernelIdeal.Hand.h2 m c
    = refHidden (F := Ideal) (meanAgg (Cert.KernelIdeal.Hand.h1 m c) (srcOf (m ((c : Thread Cert.KernelIdeal.nD Cert.KernelIdeal.τ).loc Cert.KernelIdeal.main_arg1))) (dstOf (m ((c : Thread Cert.KernelIdeal.nD Cert.KernelIdeal.τ).loc Cert.KernelIdeal.main_arg1)))) (Cert.KernelIdeal.Hand.h1 m c) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) :=
  hidden_eq _ _ _ _ _ _ _

/-- The kernel's output layer is the reference's, of the second hidden layer. -/
theorem out3_eq : Cert.KernelIdeal.Hand.out3 m c
    = refLogSoftmax (F := Ideal) (refLin (F := Ideal) (meanAgg (Cert.KernelIdeal.Hand.h2 m c) (srcOf (m ((c : Thread Cert.KernelIdeal.nD Cert.KernelIdeal.τ).loc Cert.KernelIdeal.main_arg1))) (dstOf (m ((c : Thread Cert.KernelIdeal.nD Cert.KernelIdeal.τ).loc Cert.KernelIdeal.main_arg1)))) (Cert.KernelIdeal.Hand.h2 m c) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))) :=
  out_eq _ _ _ _ _ _ _

/-- From memories that agree on the eleven arguments the reference's result is the kernel's. -/
theorem result_eq (m' : (ℓ : Loc Cert.ReferenceIdeal.nD Cert.ReferenceIdeal.τ Cert.ReferenceIdeal.sig) → Buf (Elt Ideal) ℓ)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    r3 (F := Ideal) m' c = Cert.KernelIdeal.Hand.out3 m c := by
  unfold r3 r2 r1
  rw [e0, e1, e2, e3, e4, e5, e6, e7, e8, e9, e10, out3_eq, h2_eq, h1_eq]

end Cert.Proof.Layers

end
-- ==== Proof.lean ====
/-
  The certificate of a three-layer graph network: two hidden layers and a log-softmax output layer, each a mean aggregation
  over the edge list followed by a dense map of the aggregated and the node's own features.  The kernel computes the
  aggregation on the host and the dense map, with its rectifier or log-softmax, in a row-tiled body (20 blocks of 5000 rows);
  the reference computes every layer on whole arrays.

  On the extended reals both programs compute, per layer, the same function of the layer's input: the aggregation is the same
  sequence of operations on both sides; a body's narrowing of its operands is the identity; a block's row of the matrix product
  is the whole product's row; the two programs add the bias before or after the second product, which is the same sum; and
  the log-softmax is the same expression once the reference's maximum with −∞ and its sum's zero start are dropped.  Nothing here
  needs the inputs to be finite.

  The frames of the two kernel programs are the generated ones; the reference's frame is its run with the result dropped; the
  idealization rewrote nothing, so `preserves` is trivial.
-/
import proofs.«117211_j47648367182185_1_alg».proof.Defs
import proofs.«117211_j47648367182185_1_alg».proof.Proof.Gen.Kernel
import proofs.«117211_j47648367182185_1_alg».proof.Proof.Gen.Kernel.Frame
import proofs.«117211_j47648367182185_1_alg».proof.Proof.Gen.KernelIdeal
import proofs.«117211_j47648367182185_1_alg».proof.Proof.Gen.KernelIdeal.Frame
import proofs.«117211_j47648367182185_1_alg».proof.Proof.Gen.ReferenceIdeal
import proofs.«117211_j47648367182185_1_alg».proof.Proof.Gen.Pre_finite_inputs
import proofs.«117211_j47648367182185_1_alg».proof.Proof.KernelRun
import proofs.«117211_j47648367182185_1_alg».proof.Proof.KChain
import proofs.«117211_j47648367182185_1_alg».proof.Proof.RefStages
import proofs.«117211_j47648367182185_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both idealized programs end at the three nested layers of the arguments: the kernel by its run read through the three
    regions, the reference by its run read through its four stretches, and the two values are one. -/
theorem algebraic : Cert.algebraic_KernelIdeal_ReferenceIdeal := by
  intro m ρ m' ρ' _ hagree
  refine ⟨fun c => Cert.KernelIdeal.Hand.out3 m c, ?_, ?_⟩
  · exact (θ_run Cert.KernelIdeal.defs _ _).mono
      (fun r h c => ⟨(h c).1.trans (Cert.KernelIdeal.Hand.w6_v72 m ρ c), (h c).2⟩)
      (Cert.KernelIdeal.Hand.run_named m ρ)
  · refine (θ_run Cert.ReferenceIdeal.defs _ _).mono (fun _ h c => ⟨(h c).1.trans ?_, (h c).2⟩)
      (Cert.ReferenceIdeal.Hand.run (F := Ideal) m' ρ')
    obtain ⟨e0, e1, e2, e3, e4, e5, e6, e7, e8, e9, e10⟩ := hagree c
    exact Cert.Proof.Layers.result_eq m c m' e0 e1 e2 e3 e4 e5 e6 e7 e8 e9 e10

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
